-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S3x20x1024x64 : Shape := ⟨4, ![3, 20, 1024, 64]⟩
abbrev S64 : Shape := ⟨1, ![64]⟩
abbrev S_ : Shape := ⟨0, ![]⟩

class Facts : Prop where
  bcast_S_S3x20x1024x64 : S_.BroadcastsInDim S3x20x1024x64 (![] : Fin 0 → Fin S3x20x1024x64.rank)
  reducesTo_S3x20x1024x64_S_d0_1_2_3 : S3x20x1024x64.ReducesTo [0, 1, 2, 3] S_
  h_S_ : 0 < S_.numel
  bcast_S_S64 : S_.BroadcastsInDim S64 (![] : Fin 0 → Fin S64.rank)
  reducesTo_S64_S_d0 : S64.ReducesTo [0] S_

variable [Facts]

def fn_part4 {F : FTy → Type} [FloatOps F] (main_arg14 : FVec F S64 .f32) (main_v63 : IVec S_ 1) (main_v67 : IVec S_ 1) : IVec S_ 1 :=
  let main_v68 : IVec S_ 1 := andi main_v63 main_v67
  let main_v69 : FVec F S64 .f32 := Host.absf main_arg14
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  main_v73

def fn_part3 {F : FTy → Type} [FloatOps F] (main_arg11 : FVec F S64 .f32) (main_arg12 : FVec F S64 .f32) (main_arg13 : FVec F S64 .f32) (main_arg14 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg11
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg12
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg13
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg14 main_v63 main_v67

def fn_part2 {F : FTy → Type} [FloatOps F] (main_arg7 : FVec F S64 .f32) (main_arg8 : FVec F S64 .f32) (main_arg9 : FVec F S64 .f32) (main_arg10 : FVec F S64 .f32) (main_arg11 : FVec F S64 .f32) (main_arg12 : FVec F S64 .f32) (main_arg13 : FVec F S64 .f32) (main_arg14 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg11 main_arg12 main_arg13 main_arg14 main_v48 main_v49 main_v50

def fn_part1 {F : FTy → Type} [FloatOps F] (main_arg4 : FVec F S64 .f32) (main_arg5 : FVec F S64 .f32) (main_arg6 : FVec F S64 .f32) (main_arg7 : FVec F S64 .f32) (main_arg8 : FVec F S64 .f32) (main_arg9 : FVec F S64 .f32) (main_arg10 : FVec F S64 .f32) (main_arg11 : FVec F S64 .f32) (main_arg12 : FVec F S64 .f32) (main_arg13 : FVec F S64 .f32) (main_arg14 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S3x20x1024x64 .f32) (main_arg1 : FVec F S64 .f32) (main_arg2 : FVec F S64 .f32) (main_arg3 : FVec F S64 .f32) (main_arg4 : FVec F S64 .f32) (main_arg5 : FVec F S64 .f32) (main_arg6 : FVec F S64 .f32) (main_arg7 : FVec F S64 .f32) (main_arg8 : FVec F S64 .f32) (main_arg9 : FVec F S64 .f32) (main_arg10 : FVec F S64 .f32) (main_arg11 : FVec F S64 .f32) (main_arg12 : FVec F S64 .f32) (main_arg13 : FVec F S64 .f32) (main_arg14 : FVec F S64 .f32) : IVec S_ 1 :=
  let main_v0 : FVec F S3x20x1024x64 .f32 := Host.absf main_arg0
  let main_cst : FVec F S_ .f32 := constant S_ .f32 0x7F800000#32
  let main_v1 : FVec F S3x20x1024x64 .f32 := broadcastInDim S3x20x1024x64 ![] bcast_S_S3x20x1024x64 main_cst
  let main_v2 : IVec S3x20x1024x64 1 := cmpf .olt main_v0 main_v1
  let main_c : IVec S_ 1 := constantI S_ 1 1#1
  let main_v3 : IVec S_ 1 := (fun x v => Host.reduce IntOp.andi x v reducesTo_S3x20x1024x64_S_d0_1_2_3 h_S_) main_v2 main_c
  let main_v4 : FVec F S64 .f32 := Host.absf main_arg1
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S3x20x1024x64 : Shape := ⟨4, ![3, 20, 1024, 64]⟩
abbrev S64 : Shape := ⟨1, ![64]⟩
abbrev S1x20x1024x64 : Shape := ⟨4, ![1, 20, 1024, 64]⟩
abbrev S20x1024x64 : Shape := ⟨3, ![20, 1024, 64]⟩
abbrev S1x256x64 : Shape := ⟨3, ![1, 256, 64]⟩
abbrev S1x1024x64 : Shape := ⟨3, ![1, 1024, 64]⟩
abbrev S256x64 : Shape := ⟨2, ![256, 64]⟩
abbrev S1024x64 : Shape := ⟨2, ![1024, 64]⟩
abbrev S1x64 : Shape := ⟨2, ![1, 64]⟩
abbrev S256x4x16 : Shape := ⟨3, ![256, 4, 16]⟩
abbrev S4x256x16 : Shape := ⟨3, ![4, 256, 16]⟩
abbrev S1024x4x16 : Shape := ⟨3, ![1024, 4, 16]⟩
abbrev S4x1024x16 : Shape := ⟨3, ![4, 1024, 16]⟩
abbrev S4x256x1024 : Shape := ⟨3, ![4, 256, 1024]⟩
abbrev S4x256 : Shape := ⟨2, ![4, 256]⟩
abbrev S4x256x1 : Shape := ⟨3, ![4, 256, 1]⟩

abbrev nBuf : Space → Nat
  | .hbm => 22
  | .vmem => 22
  | .smem => 0
  | _ => 0

abbrev bufTy : (tb : Table) → Fin (tcTables nBuf tb) → BufTy
  | .hbm, ⟨0, _⟩ => ⟨S3x20x1024x64, .f32⟩
  | .hbm, ⟨1, _⟩ => ⟨S64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S64, .f32⟩
  | .hbm, ⟨15, _⟩ => ⟨S1x20x1024x64, .f32⟩
  | .hbm, ⟨16, _⟩ => ⟨S20x1024x64, .f32⟩
  | .hbm, ⟨17, _⟩ => ⟨S1x20x1024x64, .f32⟩
  | .hbm, ⟨18, _⟩ => ⟨S20x1024x64, .f32⟩
  | .hbm, ⟨19, _⟩ => ⟨S1x20x1024x64, .f32⟩
  | .hbm, ⟨20, _⟩ => ⟨S20x1024x64, .f32⟩
  | .hbm, ⟨21, _⟩ => ⟨S20x1024x64, .f32⟩
  | .local _ .vmem, ⟨0, _⟩ => ⟨S1x256x64, .f32⟩
  | .local _ .vmem, ⟨1, _⟩ => ⟨S1x256x64, .f32⟩
  | .local _ .vmem, ⟨2, _⟩ => ⟨S1x1024x64, .f32⟩
  | .local _ .vmem, ⟨3, _⟩ => ⟨S1x1024x64, .f32⟩
  | .local _ .vmem, ⟨4, _⟩ => ⟨S1x1024x64, .f32⟩
  | .local _ .vmem, ⟨5, _⟩ => ⟨S1x1024x64, .f32⟩
  | .local _ .vmem, ⟨6, _⟩ => ⟨S64, .f32⟩
  | .local _ .vmem, ⟨7, _⟩ => ⟨S64, .f32⟩
  | .local _ .vmem, ⟨8, _⟩ => ⟨S64, .f32⟩
  | .local _ .vmem, ⟨9, _⟩ => ⟨S64, .f32⟩
  | .local _ .vmem, ⟨10, _⟩ => ⟨S64, .f32⟩
  | .local _ .vmem, ⟨11, _⟩ => ⟨S64, .f32⟩
  | .local _ .vmem, ⟨12, _⟩ => ⟨S64, .f32⟩
  | .local _ .vmem, ⟨13, _⟩ => ⟨S64, .f32⟩
  | .local _ .vmem, ⟨14, _⟩ => ⟨S64, .f32⟩
  | .local _ .vmem, ⟨15, _⟩ => ⟨S64, .f32⟩
  | .local _ .vmem, ⟨16, _⟩ => ⟨S64, .f32⟩
  | .local _ .vmem, ⟨17, _⟩ => ⟨S64, .f32⟩
  | .local _ .vmem, ⟨18, _⟩ => ⟨S64, .f32⟩
  | .local _ .vmem, ⟨19, _⟩ => ⟨S64, .f32⟩
  | .local _ .vmem, ⟨20, _⟩ => ⟨S1x256x64, .f32⟩
  | .local _ .vmem, ⟨21, _⟩ => ⟨S1x256x64, .f32⟩
  | _, _ => ⟨S3x20x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg17_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem17_1 : DmaSem sig := 21

abbrev nD : Nat := 1
abbrev τ : Topo := Topo.v7x

variable {F : FTy → Type} [FloatOps F]

abbrev grid0 : Pipeline.Grid := ⟨2, ![20, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_11 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_12 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_13 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_14 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_15 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_16 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 2 → Memref sig .tc .vmem S1x256x64 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

class Facts₀ : Prop where
  slices_S3x20x1024x64_S1x20x1024x64_0_0_0_0 : S3x20x1024x64.Slices ![0, 0, 0, 0] S1x20x1024x64
  shapeCasts_S1x20x1024x64_S20x1024x64 : S1x20x1024x64.ShapeCasts S20x1024x64
  slices_S3x20x1024x64_S1x20x1024x64_1_0_0_0 : S3x20x1024x64.Slices ![1, 0, 0, 0] S1x20x1024x64
  slices_S3x20x1024x64_S1x20x1024x64_2_0_0_0 : S3x20x1024x64.Slices ![2, 0, 0, 0] S1x20x1024x64
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S64_S64_0 : ∀ a, (![0] : Fin 1 → Nat) a + S64.size a ≤ S64.size a
  h_S64 : 0 < S64.numel
  shapeCasts_S64_S1x64 : S64.ShapeCasts S1x64
  broadcasts_S1x64_S256x64 : S1x64.Broadcasts S256x64
  broadcasts_S1x64_S1024x64 : S1x64.Broadcasts S1024x64
  shapeCasts_S256x64_S256x4x16 : S256x64.ShapeCasts S256x4x16
  bitsLt_bf16_f32 : FTy.bits .bf16 < FTy.bits .f32
  transposes_S256x4x16_p1_0_2_S4x256x16 : S256x4x16.Transposes [1, 0, 2] S4x256x16
  shapeCasts_S1024x64_S1024x4x16 : S1024x64.ShapeCasts S1024x4x16
  transposes_S1024x4x16_p1_0_2_S4x1024x16 : S1024x4x16.Transposes [1, 0, 2] S4x1024x16
  reduces_S4x256x1024_S4x256 : S4x256x1024.Reduces [2] S4x256
  shapeCasts_S4x256_S4x256x1 : S4x256.ShapeCasts S4x256x1
  broadcasts_S4x256x1_S4x256x1024 : S4x256x1.Broadcasts S4x256x1024
  transposes_S4x256x16_p1_0_2_S256x4x16 : S4x256x16.Transposes [1, 0, 2] S256x4x16
  shapeCasts_S256x4x16_S256x64 : S256x4x16.ShapeCasts S256x64
  shapeCasts_S256x64_S1x256x64 : S256x64.ShapeCasts S1x256x64
  dot_S4x256x16_S4x1024x16_S4x256x1024_2_2_1_1_0_0_wf : DotDims.WF S4x256x16 S4x1024x16 S4x256x1024 [2] [2] [1] [1] [0] [0]
  dot_S4x256x1024_S4x1024x16_S4x256x16_2_1_1_2_0_0_wf : DotDims.WF S4x256x1024 S4x1024x16 S4x256x16 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x64.size a ≤ S20x1024x64.size a
  hwx0_0 : ∀ i : grid0.Coords, EltTy.bits .f32 = 32 ∨ (Rect.block (s := S20x1024x64) S1x256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x64.size a ≤ S20x1024x64.size a
  hwx0_1 : ∀ i : grid0.Coords, EltTy.bits .f32 = 32 ∨ (Rect.block (s := S20x1024x64) S1x1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x64.size a ≤ S20x1024x64.size a
  hwx0_2 : ∀ i : grid0.Coords, EltTy.bits .f32 = 32 ∨ (Rect.block (s := S20x1024x64) S1x1024x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64.size a ≤ S64.size a
  hwx0_7 : ∀ i : grid0.Coords, EltTy.bits .f32 = 32 ∨ (Rect.block (s := S64) S64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64.size a ≤ S64.size a
  hwx0_8 : ∀ i : grid0.Coords, EltTy.bits .f32 = 32 ∨ (Rect.block (s := S64) S64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64.size a ≤ S64.size a
  hwx0_9 : ∀ i : grid0.Coords, EltTy.bits .f32 = 32 ∨ (Rect.block (s := S64) S64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64.size a ≤ S64.size a
  hwx0_10 : ∀ i : grid0.Coords, EltTy.bits .f32 = 32 ∨ (Rect.block (s := S64) S64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S64.size a ≤ S64.size a
  hwx0_11 : ∀ i : grid0.Coords, EltTy.bits .f32 = 32 ∨ (Rect.block (s := S64) S64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S64.size a ≤ S64.size a
  hwx0_12 : ∀ i : grid0.Coords, EltTy.bits .f32 = 32 ∨ (Rect.block (s := S64) S64.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S64.size a ≤ S64.size a
  hwx0_13 : ∀ i : grid0.Coords, EltTy.bits .f32 = 32 ∨ (Rect.block (s := S64) S64.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S64.size a ≤ S64.size a
  hwx0_14 : ∀ i : grid0.Coords, EltTy.bits .f32 = 32 ∨ (Rect.block (s := S64) S64.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S64.size a ≤ S64.size a
  hwx0_15 : ∀ i : grid0.Coords, EltTy.bits .f32 = 32 ∨ (Rect.block (s := S64) S64.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S64.size a ≤ S64.size a
  hwx0_16 : ∀ i : grid0.Coords, EltTy.bits .f32 = 32 ∨ (Rect.block (s := S64) S64.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S1x256x64.size a ≤ S20x1024x64.size a
  hwx0_17 : ∀ i : grid0.Coords, EltTy.bits .f32 = 32 ∨ (Rect.block (s := S20x1024x64) S1x256x64.size (cc0_transform_17 i) (hinb0_17 i)).WholeWords (EltTy.packing .f32)

variable [Facts₀]

def dot_S4x256x16_S4x1024x16_S4x256x1024_2_2_1_1_0_0 : DotDims S4x256x16 S4x1024x16 S4x256x1024 where
  lhsContracting := [2]
  rhsContracting := [2]
  lhsNonContracting := [1]
  rhsNonContracting := [1]
  lhsBatch := [0]
  rhsBatch := [0]
  wf := dot_S4x256x16_S4x1024x16_S4x256x1024_2_2_1_1_0_0_wf
def dot_S4x256x1024_S4x1024x16_S4x256x16_2_1_1_2_0_0 : DotDims S4x256x1024 S4x1024x16 S4x256x16 where
  lhsContracting := [2]
  rhsContracting := [1]
  lhsNonContracting := [1]
  rhsNonContracting := [2]
  lhsBatch := [0]
  rhsBatch := [0]
  wf := dot_S4x256x1024_S4x1024x16_S4x256x16_2_1_1_2_0_0_wf

abbrev win0_0 : Pipeline.Window sig grid0 :=
  Pipeline.Window.ofSpec (Memref.whole main_v1) S1x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x1024x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg7) S64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg8) S64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg9) S64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg10) S64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg11) S64.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg12) S64.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg13) S64.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg14) S64.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v6) S1x256x64.size cc0_transform_17 reads0_17 true false 2 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

class Facts : Prop extends Facts₀ where

variable [Facts]
-- ==== ReferenceIdeal.lean ====
abbrev S3x20x1024x64 : Shape := ⟨4, ![3, 20, 1024, 64]⟩
abbrev S64 : Shape := ⟨1, ![64]⟩
abbrev S1x20x1024x64 : Shape := ⟨4, ![1, 20, 1024, 64]⟩
abbrev S20x1024x64 : Shape := ⟨3, ![20, 1024, 64]⟩
abbrev S1x1x64 : Shape := ⟨3, ![1, 1, 64]⟩
abbrev S20x1024x4x16 : Shape := ⟨4, ![20, 1024, 4, 16]⟩
abbrev S20x4x1024x16 : Shape := ⟨4, ![20, 4, 1024, 16]⟩
abbrev S20x4x1024x1024 : Shape := ⟨4, ![20, 4, 1024, 1024]⟩
abbrev S_ : Shape := ⟨0, ![]⟩
abbrev S20x4x1024 : Shape := ⟨3, ![20, 4, 1024]⟩
abbrev S20x4x1024x1 : Shape := ⟨4, ![20, 4, 1024, 1]⟩

abbrev nBuf : Space → Nat
  | .hbm => 127
  | .vmem => 0
  | .smem => 0
  | _ => 0

abbrev bufTy : (tb : Table) → Fin (tcTables nBuf tb) → BufTy
  | .hbm, ⟨0, _⟩ => ⟨S3x20x1024x64, .f32⟩
  | .hbm, ⟨1, _⟩ => ⟨S64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S64, .f32⟩
  | .hbm, ⟨15, _⟩ => ⟨S1x20x1024x64, .f32⟩
  | .hbm, ⟨16, _⟩ => ⟨S20x1024x64, .f32⟩
  | .hbm, ⟨17, _⟩ => ⟨S1x20x1024x64, .f32⟩
  | .hbm, ⟨18, _⟩ => ⟨S20x1024x64, .f32⟩
  | .hbm, ⟨19, _⟩ => ⟨S1x20x1024x64, .f32⟩
  | .hbm, ⟨20, _⟩ => ⟨S20x1024x64, .f32⟩
  | .hbm, ⟨21, _⟩ => ⟨S1x1x64, .f32⟩
  | .hbm, ⟨22, _⟩ => ⟨S20x1024x64, .f32⟩
  | .hbm, ⟨23, _⟩ => ⟨S20x1024x64, .f32⟩
  | .hbm, ⟨24, _⟩ => ⟨S1x1x64, .f32⟩
  | .hbm, ⟨25, _⟩ => ⟨S20x1024x64, .f32⟩
  | .hbm, ⟨26, _⟩ => ⟨S20x1024x64, .f32⟩
  | .hbm, ⟨27, _⟩ => ⟨S1x1x64, .f32⟩
  | .hbm, ⟨28, _⟩ => ⟨S20x1024x64, .f32⟩
  | .hbm, ⟨29, _⟩ => ⟨S20x1024x64, .f32⟩
  | .hbm, ⟨30, _⟩ => ⟨S1x1x64, .f32⟩
  | .hbm, ⟨31, _⟩ => ⟨S20x1024x64, .f32⟩
  | .hbm, ⟨32, _⟩ => ⟨S20x1024x64, .f32⟩
  | .hbm, ⟨33, _⟩ => ⟨S1x1x64, .f32⟩
  | .hbm, ⟨34, _⟩ => ⟨S20x1024x64, .f32⟩
  | .hbm, ⟨35, _⟩ => ⟨S20x1024x64, .f32⟩
  | .hbm, ⟨36, _⟩ => ⟨S1x1x64, .f32⟩
  | .hbm, ⟨37, _⟩ => ⟨S20x1024x64, .f32⟩
  | .hbm, ⟨38, _⟩ => ⟨S20x1024x64, .f32⟩
  | .hbm, ⟨39, _⟩ => ⟨S20x1024x4x16, .f32⟩
  | .hbm, ⟨40, _⟩ => ⟨S20x4x1024x16, .f32⟩
  | .hbm, ⟨41, _⟩ => ⟨S20x1024x4x16, .f32⟩
  | .hbm, ⟨42, _⟩ => ⟨S20x4x1024x16, .f32⟩
  | .hbm, ⟨43, _⟩ => ⟨S20x1024x4x16, .f32⟩
  | .hbm, ⟨44, _⟩ => ⟨S20x4x1024x16, .f32⟩
  | .hbm, ⟨45, _⟩ => ⟨S20x4x1024x1024, .f32⟩
  | .hbm, ⟨46, _⟩ => ⟨S_, .f32⟩
  | .hbm, ⟨47, _⟩ => ⟨S20x4x1024x1024, .f32⟩
  | .hbm, ⟨48, _⟩ => ⟨S20x4x1024x1024, .f32⟩
  | .hbm, ⟨49, _⟩ => ⟨S_, .f32⟩
  | .hbm, ⟨50, _⟩ => ⟨S20x4x1024, .f32⟩
  | .hbm, ⟨51, _⟩ => ⟨S_, .f32⟩
  | .hbm, ⟨52, _⟩ => ⟨S20x4x1024, .f32⟩
  | .hbm, ⟨53, _⟩ => ⟨S20x4x1024, .f32⟩
  | .hbm, ⟨54, _⟩ => ⟨S20x4x1024x1, .f32⟩
  | .hbm, ⟨55, _⟩ => ⟨S20x4x1024x1024, .f32⟩
  | .hbm, ⟨56, _⟩ => ⟨S20x4x1024x1024, .f32⟩
  | .hbm, ⟨57, _⟩ => ⟨S20x4x1024x1024, .f32⟩
  | .hbm, ⟨58, _⟩ => ⟨S_, .f32⟩
  | .hbm, ⟨59, _⟩ => ⟨S20x4x1024, .f32⟩
  | .hbm, ⟨60, _⟩ => ⟨S20x4x1024x1, .f32⟩
  | .hbm, ⟨61, _⟩ => ⟨S20x4x1024x1024, .f32⟩
  | .hbm, ⟨62, _⟩ => ⟨S20x4x1024x1024, .f32⟩
  | .hbm, ⟨63, _⟩ => ⟨S20x4x1024x16, .f32⟩
  | .hbm, ⟨64, _⟩ => ⟨S20x1024x4x16, .f32⟩
  | .hbm, ⟨65, _⟩ => ⟨S20x1024x64, .f32⟩
  | .hbm, ⟨66, _⟩ => ⟨S1x1x64, .f32⟩
  | .hbm, ⟨67, _⟩ => ⟨S20x1024x64, .f32⟩
  | .hbm, ⟨68, _⟩ => ⟨S20x1024x64, .f32⟩
  | .hbm, ⟨69, _⟩ => ⟨S1x1x64, .f32⟩
  | .hbm, ⟨70, _⟩ => ⟨S20x1024x64, .f32⟩
  | .hbm, ⟨71, _⟩ => ⟨S20x1024x64, .f32⟩
  | .hbm, ⟨72, _⟩ => ⟨S1x1x64, .f32⟩
  | .hbm, ⟨73, _⟩ => ⟨S20x1024x64, .f32⟩
  | .hbm, ⟨74, _⟩ => ⟨S20x1024x64, .f32⟩
  | .hbm, ⟨75, _⟩ => ⟨S1x1x64, .f32⟩
  | .hbm, ⟨76, _⟩ => ⟨S20x1024x64, .f32⟩
  | .hbm, ⟨77, _⟩ => ⟨S20x1024x64, .f32⟩
  | .hbm, ⟨78, _⟩ => ⟨S1x1x64, .f32⟩
  | .hbm, ⟨79, _⟩ => ⟨S20x1024x64, .f32⟩
  | .hbm, ⟨80, _⟩ => ⟨S20x1024x64, .f32⟩
  | .hbm, ⟨81, _⟩ => ⟨S1x1x64, .f32⟩
  | .hbm, ⟨82, _⟩ => ⟨S20x1024x64, .f32⟩
  | .hbm, ⟨83, _⟩ => ⟨S20x1024x64, .f32⟩
  | .hbm, ⟨84, _⟩ => ⟨S20x1024x4x16, .f32⟩
  | .hbm, ⟨85, _⟩ => ⟨S20x4x1024x16, .f32⟩
  | .hbm, ⟨86, _⟩ => ⟨S20x1024x4x16, .f32⟩
  | .hbm, ⟨87, _⟩ => ⟨S20x4x1024x16, .f32⟩
  | .hbm, ⟨88, _⟩ => ⟨S20x1024x4x16, .f32⟩
  | .hbm, ⟨89, _⟩ => ⟨S20x4x1024x16, .f32⟩
  | .hbm, ⟨90, _⟩ => ⟨S20x4x1024x1024, .f32⟩
  | .hbm, ⟨91, _⟩ => ⟨S_, .f32⟩
  | .hbm, ⟨92, _⟩ => ⟨S20x4x1024x1024, .f32⟩
  | .hbm, ⟨93, _⟩ => ⟨S20x4x1024x1024, .f32⟩
  | .hbm, ⟨94, _⟩ => ⟨S_, .f32⟩
  | .hbm, ⟨95, _⟩ => ⟨S20x4x1024, .f32⟩
  | .hbm, ⟨96, _⟩ => ⟨S_, .f32⟩
  | .hbm, ⟨97, _⟩ => ⟨S20x4x1024, .f32⟩
  | .hbm, ⟨98, _⟩ => ⟨S20x4x1024, .f32⟩
  | .hbm, ⟨99, _⟩ => ⟨S20x4x1024x1, .f32⟩
  | .hbm, ⟨100, _⟩ => ⟨S20x4x1024x1024, .f32⟩
  | .hbm, ⟨101, _⟩ => ⟨S20x4x1024x1024, .f32⟩
  | .hbm, ⟨102, _⟩ => ⟨S20x4x1024x1024, .f32⟩
  | .hbm, ⟨103, _⟩ => ⟨S_, .f32⟩
  | .hbm, ⟨104, _⟩ => ⟨S20x4x1024, .f32⟩
  | .hbm, ⟨105, _⟩ => ⟨S20x4x1024x1, .f32⟩
  | .hbm, ⟨106, _⟩ => ⟨S20x4x1024x1024, .f32⟩
  | .hbm, ⟨107, _⟩ => ⟨S20x4x1024x1024, .f32⟩
  | .hbm, ⟨108, _⟩ => ⟨S20x4x1024x16, .f32⟩
  | .hbm, ⟨109, _⟩ => ⟨S20x1024x4x16, .f32⟩
  | .hbm, ⟨110, _⟩ => ⟨S20x1024x64, .f32⟩
  | .hbm, ⟨111, _⟩ => ⟨S_, .f32⟩
  | .hbm, ⟨112, _⟩ => ⟨S20x1024x64, .f32⟩
  | .hbm, ⟨113, _⟩ => ⟨S20x1024x64, .f32⟩
  | .hbm, ⟨114, _⟩ => ⟨S_, .f32⟩
  | .hbm, ⟨115, _⟩ => ⟨S20x1024x64, .f32⟩
  | .hbm, ⟨116, _⟩ => ⟨S20x1024x64, .f32⟩
  | .hbm, ⟨117, _⟩ => ⟨S20x1024x64, .f32⟩
  | .hbm, ⟨118, _⟩ => ⟨S_, .f32⟩
  | .hbm, ⟨119, _⟩ => ⟨S20x1024x64, .f32⟩
  | .hbm, ⟨120, _⟩ => ⟨S20x1024x64, .f32⟩
  | .hbm, ⟨121, _⟩ => ⟨S1x1x64, .f32⟩
  | .hbm, ⟨122, _⟩ => ⟨S20x1024x64, .f32⟩
  | .hbm, ⟨123, _⟩ => ⟨S20x1024x64, .f32⟩
  | .hbm, ⟨124, _⟩ => ⟨S1x1x64, .f32⟩
  | .hbm, ⟨125, _⟩ => ⟨S20x1024x64, .f32⟩
  | .hbm, ⟨126, _⟩ => ⟨S20x1024x64, .f32⟩
  | _, _ => ⟨S3x20x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst : Ref sig .tc := ⟨.hbm, 46, rfl⟩
abbrev main_v31 : Ref sig .tc := ⟨.hbm, 47, rfl⟩
abbrev main_v32 : Ref sig .tc := ⟨.hbm, 48, rfl⟩
abbrev main_cst_0 : Ref sig .tc := ⟨.hbm, 49, rfl⟩
abbrev main_v33 : Ref sig .tc := ⟨.hbm, 50, rfl⟩
abbrev main_cst_1 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_2 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_cst_3 : Ref sig .tc := ⟨.hbm, 91, rfl⟩
abbrev main_v72 : Ref sig .tc := ⟨.hbm, 92, rfl⟩
abbrev main_v73 : Ref sig .tc := ⟨.hbm, 93, rfl⟩
abbrev main_cst_4 : Ref sig .tc := ⟨.hbm, 94, rfl⟩
abbrev main_v74 : Ref sig .tc := ⟨.hbm, 95, rfl⟩
abbrev main_cst_5 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_cst_6 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_cst_7 : Ref sig .tc := ⟨.hbm, 111, rfl⟩
abbrev main_v88 : Ref sig .tc := ⟨.hbm, 112, rfl⟩
abbrev main_v89 : Ref sig .tc := ⟨.hbm, 113, rfl⟩
abbrev main_cst_8 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_cst_9 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩

abbrev nD : Nat := 1
abbrev τ : Topo := Topo.v7x

variable {F : FTy → Type} [FloatOps F]

class Facts₀ : Prop where
  slices_S3x20x1024x64_S1x20x1024x64_0_0_0_0 : S3x20x1024x64.Slices ![0, 0, 0, 0] S1x20x1024x64
  shapeCasts_S1x20x1024x64_S20x1024x64 : S1x20x1024x64.ShapeCasts S20x1024x64
  slices_S3x20x1024x64_S1x20x1024x64_1_0_0_0 : S3x20x1024x64.Slices ![1, 0, 0, 0] S1x20x1024x64
  slices_S3x20x1024x64_S1x20x1024x64_2_0_0_0 : S3x20x1024x64.Slices ![2, 0, 0, 0] S1x20x1024x64
  bcast_S64_S1x1x64_2 : S64.BroadcastsInDim S1x1x64 (![2] : Fin 1 → Fin S1x1x64.rank)
  bcast_S1x1x64_S20x1024x64_0_1_2 : S1x1x64.BroadcastsInDim S20x1024x64 (![0, 1, 2] : Fin 3 → Fin S20x1024x64.rank)
  shapeCasts_S20x1024x64_S20x1024x4x16 : S20x1024x64.ShapeCasts S20x1024x4x16
  transposes_S20x1024x4x16_S20x4x1024x16_0_2_1_3 : S20x1024x4x16.Transposes [0, 2, 1, 3] S20x4x1024x16
  bcast_S_S20x4x1024x1024 : S_.BroadcastsInDim S20x4x1024x1024 (![] : Fin 0 → Fin S20x4x1024x1024.rank)
  reducesTo_S20x4x1024x1024_S20x4x1024_d3 : S20x4x1024x1024.ReducesTo [3] S20x4x1024
  h_S_ : 0 < S_.numel
  bcast_S_S20x4x1024 : S_.BroadcastsInDim S20x4x1024 (![] : Fin 0 → Fin S20x4x1024.rank)
  bcast_S20x4x1024_S20x4x1024x1_0_1_2 : S20x4x1024.BroadcastsInDim S20x4x1024x1 (![0, 1, 2] : Fin 3 → Fin S20x4x1024x1.rank)
  bcast_S20x4x1024x1_S20x4x1024x1024_0_1_2_3 : S20x4x1024x1.BroadcastsInDim S20x4x1024x1024 (![0, 1, 2, 3] : Fin 4 → Fin S20x4x1024x1024.rank)
  transposes_S20x4x1024x16_S20x1024x4x16_0_2_1_3 : S20x4x1024x16.Transposes [0, 2, 1, 3] S20x1024x4x16
  shapeCasts_S20x1024x4x16_S20x1024x64 : S20x1024x4x16.ShapeCasts S20x1024x64
  bcast_S_S20x1024x64 : S_.BroadcastsInDim S20x1024x64 (![] : Fin 0 → Fin S20x1024x64.rank)
  dot_S20x4x1024x16_S20x4x1024x16_S20x4x1024x1024_3_3_2_2_01_01_wf : DotDims.WF S20x4x1024x16 S20x4x1024x16 S20x4x1024x1024 [3] [3] [2] [2] [0, 1] [0, 1]
  dot_S20x4x1024x1024_S20x4x1024x16_S20x4x1024x16_3_2_2_3_01_01_wf : DotDims.WF S20x4x1024x1024 S20x4x1024x16 S20x4x1024x16 [3] [2] [2] [3] [0, 1] [0, 1]

variable [Facts₀]

def dot_S20x4x1024x16_S20x4x1024x16_S20x4x1024x1024_3_3_2_2_01_01 : DotDims S20x4x1024x16 S20x4x1024x16 S20x4x1024x1024 where
  lhsContracting := [3]
  rhsContracting := [3]
  lhsNonContracting := [2]
  rhsNonContracting := [2]
  lhsBatch := [0, 1]
  rhsBatch := [0, 1]
  wf := dot_S20x4x1024x16_S20x4x1024x16_S20x4x1024x1024_3_3_2_2_01_01_wf
def dot_S20x4x1024x1024_S20x4x1024x16_S20x4x1024x16_3_2_2_3_01_01 : DotDims S20x4x1024x1024 S20x4x1024x16 S20x4x1024x16 where
  lhsContracting := [3]
  rhsContracting := [2]
  lhsNonContracting := [2]
  rhsNonContracting := [3]
  lhsBatch := [0, 1]
  rhsBatch := [0, 1]
  wf := dot_S20x4x1024x1024_S20x4x1024x16_S20x4x1024x16_3_2_2_3_01_01_wf

class Facts : Prop extends Facts₀ where

variable [Facts]
-- ==== Proof.Spec.lean ====
/-
  The mathematics of the two programs, with no program in sight.

  The input `x` stacks three arrays of 20 slices of 1024 rows of 64 channels: queries, keys, values. A per-channel scale
  and shift (`dw`) is applied to each; the 64 channels are 4 heads of 16 consecutive lanes (`ch h d = 16 h + d`). For one
  query row and one head, the score against key row `k` is the 16-lane inner product times the word 0.25; the row of 1024
  scores goes through a softmax — subtract the row maximum (folded from −∞ and joined with −∞ once more, as both programs
  write it), exponentiate, divide by the sum —, and the head's output lane `d` is the probability-weighted sum of the
  values' lane. This is done twice (two parameter sets, "global" and "local"), and the result is
  `2 · (½ · local + ½ · global) · proj_w + proj_b`. Each output row depends on ONE query row and on all key and value
  rows of its slice, so any tiling of the query rows computes the same array.

  Float literals stay as their words (`Ideal.ofBits .f32 …`): both programs carry the same words, so none is evaluated.
-/
import Idealize.ShloMosaic.PureOps.Ideal
import Idealize.ShloMosaic.Lib.ValueIdx

noncomputable section

namespace Cert.Spec

open Idealize.ShloMosaic Idealize.ShloMosaic.ValueIdx

/-- The channel of head `h`, lane `d`: heads are consecutive groups of 16 channels. -/
def ch (h : Fin 4) (d : Fin 16) : Fin 64 := ⟨h.val * 16 + d.val, by omega⟩

/-- The head of a channel, -/
def hd (c : Fin 64) : Fin 4 := ⟨c.val / 16, by omega⟩

/-- and its lane inside the head. -/
def ln (c : Fin 64) : Fin 16 := ⟨c.val % 16, Nat.mod_lt _ (by decide)⟩

theorem ch_hd_ln (c : Fin 64) : ch (hd c) (ln c) = c := Fin.ext (by
  show c.val / 16 * 16 + c.val % 16 = c.val
  omega)

theorem hd_ch (h : Fin 4) (d : Fin 16) : hd (ch h d) = h := Fin.ext (by
  show (h.val * 16 + d.val) / 16 = h.val
  omega)

theorem ln_ch (h : Fin 4) (d : Fin 16) : ln (ch h d) = d := Fin.ext (by
  show (h.val * 16 + d.val) % 16 = d.val
  omega)

theorem ch_val (h : Fin 4) (d : Fin 16) : (ch h d).val = h.val * 16 + d.val := rfl

/-- Per-channel scale and shift. -/
def dw (x w b : EReal) : EReal := x * w + b

/-! ## One head -/

/-- The scaled score of one head's query lanes `q` against key row `k`: the 16-lane inner product times the word 0.25. -/
def score (q : Fin 16 → EReal) (K : Fin 1024 → Fin 16 → EReal) (k : Fin 1024) : EReal :=
  (∑ d : Fin 16, q d * K k d) * Ideal.ofBits .f32 0x3E800000#32

/-- A row's maximum: folded from −∞ over the 1024 entries and joined with −∞ once more. -/
def rowMax (row : Fin 1024 → EReal) : EReal :=
  max (Ideal.ofBits .f32 0xFF800000#32) ((Finset.univ : Finset (Fin 1024)).fold max (Ideal.ofBits .f32 0xFF800000#32) row)

/-- The exponential of a score less its row's maximum, -/
def expo (q : Fin 16 → EReal) (K : Fin 1024 → Fin 16 → EReal) (k : Fin 1024) : EReal :=
  Ideal.exp (score q K k - rowMax (score q K))

/-- the row's sum of them, -/
def denom (q : Fin 16 → EReal) (K : Fin 1024 → Fin 16 → EReal) : EReal :=
  ∑ k : Fin 1024, expo q K k

/-- and their quotient: the softmax weight of key row `k`. -/
def prob (q : Fin 16 → EReal) (K : Fin 1024 → Fin 16 → EReal) (k : Fin 1024) : EReal :=
  Ideal.div (expo q K k) (denom q K)

/-- One head's attention output at lane `d`: the weights against the values' lane. -/
def attnH (q : Fin 16 → EReal) (K V : Fin 1024 → Fin 16 → EReal) (d : Fin 16) : EReal :=
  ∑ k : Fin 1024, prob q K k * V k d

/-! ## The four heads of a 64-channel row -/

/-- Head `h` of rows of 64 channels: its 16 lanes taken out, then one head's attention. -/
def attn (q : Fin 64 → EReal) (K V : Fin 1024 → Fin 64 → EReal) (h : Fin 4) (d : Fin 16) : EReal :=
  attnH (fun d' => q (ch h d')) (fun k d' => K k (ch h d')) (fun k d' => V k (ch h d')) d

/-- The two variants mixed and projected: `2 · (½ · l + ½ · g) · pw + pb`, the literals as their words. -/
def mix (g l pw pb : EReal) : EReal :=
  Ideal.ofBits .f32 0x40000000#32 * (Ideal.ofBits .f32 0x3F000000#32 * l + Ideal.ofBits .f32 0x3F000000#32 * g) * pw + pb

/-! ## The whole result as one function of the argument arrays -/

abbrev SX : Shape := ⟨4, ![3, 20, 1024, 64]⟩
abbrev SP : Shape := ⟨1, ![64]⟩
abbrev SO : Shape := ⟨3, ![20, 1024, 64]⟩

/-- Row `r` of slice `s` of part `j` of `x` (0 queries, 1 keys, 2 values), scaled and shifted per channel. -/
def dwRow (X : SX.Idx → EReal) (w b : SP.Idx → EReal) (j : Fin 3) (s : Fin 20) (r : Fin 1024) (c : Fin 64) : EReal :=
  dw (X (ix4 j s r c)) (w (ix1 c)) (b (ix1 c))

/-- One variant's attention output for query row `r` of slice `s`, head `h`, lane `d`. -/
def attnAt (X : SX.Idx → EReal) (qw qb kw kb vw vb : SP.Idx → EReal) (s : Fin 20) (r : Fin 1024) (h : Fin 4) (d : Fin 16) : EReal :=
  attn (dwRow X qw qb 0 s r) (dwRow X kw kb 1 s) (dwRow X vw vb 2 s) h d

/-- The result at slice `s`, row `r`, channel `ch h d`. -/
def outAt (X : SX.Idx → EReal) (p1 p2 p3 p4 p5 p6 p7 p8 p9 p10 p11 p12 p13 p14 : SP.Idx → EReal)
    (s : Fin 20) (r : Fin 1024) (h : Fin 4) (d : Fin 16) : EReal :=
  mix (attnAt X p1 p2 p3 p4 p5 p6 s r h d) (attnAt X p7 p8 p9 p10 p11 p12 s r h d) (p13 (ix1 (ch h d))) (p14 (ix1 (ch h d)))

/-- The result array. -/
def G (X : SX.Idx → EReal) (p1 p2 p3 p4 p5 p6 p7 p8 p9 p10 p11 p12 p13 p14 : SP.Idx → EReal) : SO.Idx → EReal :=
  fun i => outAt X p1 p2 p3 p4 p5 p6 p7 p8 p9 p10 p11 p12 p13 p14 (i 0) (i 1) (hd (i 2)) (ln (i 2))

theorem G_ix3 (X : SX.Idx → EReal) (p1 p2 p3 p4 p5 p6 p7 p8 p9 p10 p11 p12 p13 p14 : SP.Idx → EReal)
    (s : Fin 20) (r : Fin 1024) (h : Fin 4) (d : Fin 16) :
    G X p1 p2 p3 p4 p5 p6 p7 p8 p9 p10 p11 p12 p13 p14 (ix3 s r (ch h d))
      = outAt X p1 p2 p3 p4 p5 p6 p7 p8 p9 p10 p11 p12 p13 p14 s r h d := by
  show outAt X p1 p2 p3 p4 p5 p6 p7 p8 p9 p10 p11 p12 p13 p14 s r (hd (ch h d)) (ln (ch h d)) = _
  rw [hd_ch, ln_ch]

end Cert.Spec

end
-- ==== Proof.LibUnitAxis3.lean ====
/-
  Rank-3 arrays with a unit axis, read at an index given by its coordinates: a rank-2 array `[a, b]` cast to `[a, b, 1]` or to
  `[a, 1, b]` (a keepdims column or row: the row-major position is kept), and an `[a, b, 1]` or `[a, 1, c]` array broadcast
  to `[a, b, c]` (the one entry of a row, or the one row of a slab, repeated). For any element type and any extents.
-/
import Idealize.ShloMosaic.Lib.Pipeline.Value
import Idealize.ShloMosaic.Lib.ValueIdx

noncomputable section

namespace Cert.Lib.UnitAxis3

open Idealize.ShloMosaic Idealize.ShloMosaic.ValueIdx

section Layout
variable {α : Type}

/-- An `[a, b]` array cast to `[a, b, 1]` reads, at `(i, j, u)`, the operand at `(i, j)`: the row-major position is kept. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, b, 1]` array broadcast to `[a, b, c]` reads, at `(i, j, k)`, the operand's one entry of row `(i, j)`. -/
theorem broadcastTo_ab1_abc_apply {a b c : ℕ} (x : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ x h (ix3 i j k) = x (ix3 i j (0 : Fin 1)) := by
  refine broadcastTo_apply x h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, 1, c]` array broadcast to `[a, b, c]` reads, at `(i, j, k)`, the operand's one row of slab `i` at `k`. -/
theorem broadcastTo_a1c_abc_apply {a b c : ℕ} (x : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ x h (ix3 i j k) = x (ix3 i (0 : Fin 1) k) := by
  refine broadcastTo_apply x h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

end Layout

end Cert.Lib.UnitAxis3

end
-- ==== Proof.KerAttn.lean ====
/-
  The kernel's attention core on head-major operands: for 4 heads, 256 query rows and 1024 key rows of 16 lanes, the
  scores `q · k` times the word 0.25, the row softmax (maximum from −∞, exponential, sum, quotient), and the weights
  against the values. Read at head `h`, row `r`, lane `d` it is one head's attention (`Spec.attnH`) of that
  head's query lanes of row `r` and of all 1024 key and value rows of that head.
-/
import proofs.«102288_j12481174962635_2_alg».proof.Proof.Gen.KernelIdeal
import proofs.«102288_j12481174962635_2_alg».proof.Proof.Spec
import proofs.«102288_j12481174962635_2_alg».proof.Proof.LibUnitAxis3
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.KerAttn

open Cert.KernelIdeal Cert.KernelIdeal.Facts₀ Cert.KernelIdeal.Facts Idealize.ShloMosaic Idealize.ShloMosaic.ValueIdx Cert.Spec

/-- The attention core as the kernel body writes it, as one function of the head-major query, key and value operands. -/
def katt (qh : FVec Ideal S4x256x16 .bf16) (kh vh : FVec Ideal S4x1024x16 .bf16) : FVec Ideal S4x256x16 .f32 :=
  have s0 : FVec Ideal S4x256x1024 .f32 := matmul dot_S4x256x16_S4x1024x16_S4x256x1024_2_2_1_1_0_0 none qh kh (constant S4x256x1024 .f32 0x00000000#32)
  have s1 : FVec Ideal S4x256x1024 .f32 := mulf s0 (broadcast S4x256x1024 (Scalar.ofBits .f32 0x3E800000#32))
  have m0 : FVec Ideal S4x256 .f32 := multiReduction .maximumf [2] S4x256 s1 0xFF800000#32 reduces_S4x256x1024_S4x256 (.inl rfl) rfl
  have m1 : FVec Ideal S4x256 .f32 := maximumf (broadcast S4x256 (Scalar.ofBits .f32 0xFF800000#32)) m0
  have m2 : FVec Ideal S4x256x1 .f32 := shapeCast S4x256x1 m1 shapeCasts_S4x256_S4x256x1
  have m3 : FVec Ideal S4x256x1024 .f32 := broadcastTo S4x256x1024 m2 broadcasts_S4x256x1_S4x256x1024
  have e0 : FVec Ideal S4x256x1024 .f32 := exp (subf s1 m3)
  have z0 : FVec Ideal S4x256 .f32 := multiReduction .add [2] S4x256 e0 0x00000000#32 reduces_S4x256x1024_S4x256 (.inl rfl) rfl
  have z1 : FVec Ideal S4x256x1 .f32 := shapeCast S4x256x1 z0 shapeCasts_S4x256_S4x256x1
  have z2 : FVec Ideal S4x256x1024 .f32 := broadcastTo S4x256x1024 z1 broadcasts_S4x256x1_S4x256x1024
  have p0 : FVec Ideal S4x256x1024 .f32 := divf e0 z2
  have p1 : FVec Ideal S4x256x1024 .bf16 := truncf .bf16 p0 bitsLt_bf16_f32
  matmul dot_S4x256x1024_S4x1024x16_S4x256x16_2_1_1_2_0_0 none p1 vh (constant S4x256x16 .f32 0x00000000#32)

/-! ## The two products read at an index -/

/-- The score product's left operand index keeps the head, -/
theorem qk_lhs_0 (i : S4x256x1024.Idx) (q : dot_S4x256x16_S4x1024x16_S4x256x1024_2_2_1_1_0_0.contr.Idx) :
    (dot_S4x256x16_S4x1024x16_S4x256x1024_2_2_1_1_0_0.lhsIdx i q 0).val = (i 0).val := by
  unfold DotDims.lhsIdx
  rw [dif_pos (show (0 : Fin S4x256x16.rank) ∈ dot_S4x256x16_S4x1024x16_S4x256x1024_2_2_1_1_0_0.lhsBatch by decide)]
  rfl
/-- keeps the query row, -/
theorem qk_lhs_1 (i : S4x256x1024.Idx) (q : dot_S4x256x16_S4x1024x16_S4x256x1024_2_2_1_1_0_0.contr.Idx) :
    (dot_S4x256x16_S4x1024x16_S4x256x1024_2_2_1_1_0_0.lhsIdx i q 1).val = (i 1).val := by
  unfold DotDims.lhsIdx
  rw [dif_neg (show ¬(1 : Fin S4x256x16.rank) ∈ dot_S4x256x16_S4x1024x16_S4x256x1024_2_2_1_1_0_0.lhsBatch by decide), dif_pos (show (1 : Fin S4x256x16.rank) ∈ dot_S4x256x16_S4x1024x16_S4x256x1024_2_2_1_1_0_0.lhsNonContracting by decide)]
  rfl
/-- and takes the contraction position as its lane. -/
theorem qk_lhs_2 (i : S4x256x1024.Idx) (q : dot_S4x256x16_S4x1024x16_S4x256x1024_2_2_1_1_0_0.contr.Idx) :
    (dot_S4x256x16_S4x1024x16_S4x256x1024_2_2_1_1_0_0.lhsIdx i q 2).val = (q ⟨0, by decide⟩).val :=
  dot_S4x256x16_S4x1024x16_S4x256x1024_2_2_1_1_0_0.lhsIdx_val_of_single rfl i q
/-- Its right operand index keeps the head, -/
theorem qk_rhs_0 (i : S4x256x1024.Idx) (q : dot_S4x256x16_S4x1024x16_S4x256x1024_2_2_1_1_0_0.contr.Idx) :
    (dot_S4x256x16_S4x1024x16_S4x256x1024_2_2_1_1_0_0.rhsIdx i q 0).val = (i 0).val := by
  unfold DotDims.rhsIdx
  rw [dif_pos (show (0 : Fin S4x1024x16.rank) ∈ dot_S4x256x16_S4x1024x16_S4x256x1024_2_2_1_1_0_0.rhsBatch by decide)]
  rfl
/-- takes the key row from the result's last axis, -/
theorem qk_rhs_1 (i : S4x256x1024.Idx) (q : dot_S4x256x16_S4x1024x16_S4x256x1024_2_2_1_1_0_0.contr.Idx) :
    (dot_S4x256x16_S4x1024x16_S4x256x1024_2_2_1_1_0_0.rhsIdx i q 1).val = (i 2).val := by
  unfold DotDims.rhsIdx
  rw [dif_neg (show ¬(1 : Fin S4x1024x16.rank) ∈ dot_S4x256x16_S4x1024x16_S4x256x1024_2_2_1_1_0_0.rhsBatch by decide), dif_pos (show (1 : Fin S4x1024x16.rank) ∈ dot_S4x256x16_S4x1024x16_S4x256x1024_2_2_1_1_0_0.rhsNonContracting by decide)]
  rfl
/-- and takes the contraction position as its lane. -/
theorem qk_rhs_2 (i : S4x256x1024.Idx) (q : dot_S4x256x16_S4x1024x16_S4x256x1024_2_2_1_1_0_0.contr.Idx) :
    (dot_S4x256x16_S4x1024x16_S4x256x1024_2_2_1_1_0_0.rhsIdx i q 2).val = (q ⟨0, by decide⟩).val :=
  dot_S4x256x16_S4x1024x16_S4x256x1024_2_2_1_1_0_0.rhsIdx_val_of_single rfl i q

/-- The score product at head `h`, query row `r`, key row `k`: the 16-lane inner product of the two rows. -/
theorem qk_apply (qh : FVec Ideal S4x256x16 .bf16) (kh : FVec Ideal S4x1024x16 .bf16) (h : Fin 4) (r : Fin 256) (k : Fin 1024) :
    matmul dot_S4x256x16_S4x1024x16_S4x256x1024_2_2_1_1_0_0 none qh kh (constant S4x256x1024 .f32 0x00000000#32) (ix3 h r k)
      = ∑ d' : Fin 16, qh (ix3 h r d') * kh (ix3 h k d') := by
  simp only [matmul]
  rw [Ideal.matmul_constant_zero_apply, ← Equiv.sum_comp (ValueIdx.contrEquiv1 dot_S4x256x16_S4x1024x16_S4x256x1024_2_2_1_1_0_0 16 rfl rfl).symm]
  refine Finset.sum_congr rfl fun d' _ => ?_
  have hk := ValueIdx.contrEquiv1_symm_val dot_S4x256x16_S4x1024x16_S4x256x1024_2_2_1_1_0_0 16 rfl rfl d'
  have el : dot_S4x256x16_S4x1024x16_S4x256x1024_2_2_1_1_0_0.lhsIdx (ix3 h r k) ((ValueIdx.contrEquiv1 dot_S4x256x16_S4x1024x16_S4x256x1024_2_2_1_1_0_0 16 rfl rfl).symm d') = ix3 h r d' := funext fun a => Fin.ext (by
    match a with
    | ⟨0, _⟩ => exact qk_lhs_0 _ _
    | ⟨1, _⟩ => exact qk_lhs_1 _ _
    | ⟨2, _⟩ => exact (qk_lhs_2 _ _).trans hk)
  have er : dot_S4x256x16_S4x1024x16_S4x256x1024_2_2_1_1_0_0.rhsIdx (ix3 h r k) ((ValueIdx.contrEquiv1 dot_S4x256x16_S4x1024x16_S4x256x1024_2_2_1_1_0_0 16 rfl rfl).symm d') = ix3 h k d' := funext fun a => Fin.ext (by
    match a with
    | ⟨0, _⟩ => exact qk_rhs_0 _ _
    | ⟨1, _⟩ => exact qk_rhs_1 _ _
    | ⟨2, _⟩ => exact (qk_rhs_2 _ _).trans hk)
  rw [el, er]

/-- The value product's left operand index keeps the head, -/
theorem pv_lhs_0 (i : S4x256x16.Idx) (q : dot_S4x256x1024_S4x1024x16_S4x256x16_2_1_1_2_0_0.contr.Idx) :
    (dot_S4x256x1024_S4x1024x16_S4x256x16_2_1_1_2_0_0.lhsIdx i q 0).val = (i 0).val := by
  unfold DotDims.lhsIdx
  rw [dif_pos (show (0 : Fin S4x256x1024.rank) ∈ dot_S4x256x1024_S4x1024x16_S4x256x16_2_1_1_2_0_0.lhsBatch by decide)]
  rfl
/-- keeps the query row, -/
theorem pv_lhs_1 (i : S4x256x16.Idx) (q : dot_S4x256x1024_S4x1024x16_S4x256x16_2_1_1_2_0_0.contr.Idx) :
    (dot_S4x256x1024_S4x1024x16_S4x256x16_2_1_1_2_0_0.lhsIdx i q 1).val = (i 1).val := by
  unfold DotDims.lhsIdx
  rw [dif_neg (show ¬(1 : Fin S4x256x1024.rank) ∈ dot_S4x256x1024_S4x1024x16_S4x256x16_2_1_1_2_0_0.lhsBatch by decide), dif_pos (show (1 : Fin S4x256x1024.rank) ∈ dot_S4x256x1024_S4x1024x16_S4x256x16_2_1_1_2_0_0.lhsNonContracting by decide)]
  rfl
/-- and takes the contraction position as its key row. -/
theorem pv_lhs_2 (i : S4x256x16.Idx) (q : dot_S4x256x1024_S4x1024x16_S4x256x16_2_1_1_2_0_0.contr.Idx) :
    (dot_S4x256x1024_S4x1024x16_S4x256x16_2_1_1_2_0_0.lhsIdx i q 2).val = (q ⟨0, by decide⟩).val :=
  dot_S4x256x1024_S4x1024x16_S4x256x16_2_1_1_2_0_0.lhsIdx_val_of_single rfl i q
/-- Its right operand index keeps the head, -/
theorem pv_rhs_0 (i : S4x256x16.Idx) (q : dot_S4x256x1024_S4x1024x16_S4x256x16_2_1_1_2_0_0.contr.Idx) :
    (dot_S4x256x1024_S4x1024x16_S4x256x16_2_1_1_2_0_0.rhsIdx i q 0).val = (i 0).val := by
  unfold DotDims.rhsIdx
  rw [dif_pos (show (0 : Fin S4x1024x16.rank) ∈ dot_S4x256x1024_S4x1024x16_S4x256x16_2_1_1_2_0_0.rhsBatch by decide)]
  rfl
/-- takes the contraction position as its key row, -/
theorem pv_rhs_1 (i : S4x256x16.Idx) (q : dot_S4x256x1024_S4x1024x16_S4x256x16_2_1_1_2_0_0.contr.Idx) :
    (dot_S4x256x1024_S4x1024x16_S4x256x16_2_1_1_2_0_0.rhsIdx i q 1).val = (q ⟨0, by decide⟩).val :=
  dot_S4x256x1024_S4x1024x16_S4x256x16_2_1_1_2_0_0.rhsIdx_val_of_single rfl i q
/-- and keeps the lane. -/
theorem pv_rhs_2 (i : S4x256x16.Idx) (q : dot_S4x256x1024_S4x1024x16_S4x256x16_2_1_1_2_0_0.contr.Idx) :
    (dot_S4x256x1024_S4x1024x16_S4x256x16_2_1_1_2_0_0.rhsIdx i q 2).val = (i 2).val := by
  unfold DotDims.rhsIdx
  rw [dif_neg (show ¬(2 : Fin S4x1024x16.rank) ∈ dot_S4x256x1024_S4x1024x16_S4x256x16_2_1_1_2_0_0.rhsBatch by decide), dif_pos (show (2 : Fin S4x1024x16.rank) ∈ dot_S4x256x1024_S4x1024x16_S4x256x16_2_1_1_2_0_0.rhsNonContracting by decide)]
  rfl

/-- The value product at head `h`, query row `r`, lane `d`: the sum over the 1024 key rows of weight times value. -/
theorem pv_apply (p : FVec Ideal S4x256x1024 .bf16) (vh : FVec Ideal S4x1024x16 .bf16) (h : Fin 4) (r : Fin 256) (d : Fin 16) :
    matmul dot_S4x256x1024_S4x1024x16_S4x256x16_2_1_1_2_0_0 none p vh (constant S4x256x16 .f32 0x00000000#32) (ix3 h r d)
      = ∑ k : Fin 1024, p (ix3 h r k) * vh (ix3 h k d) := by
  simp only [matmul]
  rw [Ideal.matmul_constant_zero_apply, ← Equiv.sum_comp (ValueIdx.contrEquiv1 dot_S4x256x1024_S4x1024x16_S4x256x16_2_1_1_2_0_0 1024 rfl rfl).symm]
  refine Finset.sum_congr rfl fun k _ => ?_
  have hk := ValueIdx.contrEquiv1_symm_val dot_S4x256x1024_S4x1024x16_S4x256x16_2_1_1_2_0_0 1024 rfl rfl k
  have el : dot_S4x256x1024_S4x1024x16_S4x256x16_2_1_1_2_0_0.lhsIdx (ix3 h r d) ((ValueIdx.contrEquiv1 dot_S4x256x1024_S4x1024x16_S4x256x16_2_1_1_2_0_0 1024 rfl rfl).symm k) = ix3 h r k := funext fun a => Fin.ext (by
    match a with
    | ⟨0, _⟩ => exact pv_lhs_0 _ _
    | ⟨1, _⟩ => exact pv_lhs_1 _ _
    | ⟨2, _⟩ => exact (pv_lhs_2 _ _).trans hk)
  have er : dot_S4x256x1024_S4x1024x16_S4x256x16_2_1_1_2_0_0.rhsIdx (ix3 h r d) ((ValueIdx.contrEquiv1 dot_S4x256x1024_S4x1024x16_S4x256x16_2_1_1_2_0_0 1024 rfl rfl).symm k) = ix3 h k d := funext fun a => Fin.ext (by
    match a with
    | ⟨0, _⟩ => exact pv_rhs_0 _ _
    | ⟨1, _⟩ => exact (pv_rhs_1 _ _).trans hk
    | ⟨2, _⟩ => exact pv_rhs_2 _ _)
  rw [el, er]

/-! ## The two lane reductions read at an index -/

/-- The source index over `(h, r)` with key row `k` put on the dropped axis is `(h, r, k)`. -/
theorem lift_ix (hR : S4x256x1024.Reduces [2] S4x256) (h : Fin 4) (r : Fin 256) (k : Fin 1024) :
    hR.lift (ix2 h r) k = ix3 h r k :=
  funext fun c => Fin.ext (by
    match c with
    | ⟨0, _⟩ => rfl
    | ⟨1, _⟩ => rfl
    | ⟨2, _⟩ => rfl)

/-- The maximum over the key axis at `(h, r)`: the fold of `max` from the accumulator's word over the row's 1024 entries. -/
theorem reduceMax_apply (s1 : FVec Ideal S4x256x1024 .f32) (hR : S4x256x1024.Reduces [2] S4x256) (hφ : FKind.Formats .f32)
    (hacc : (0xFF800000#32 : BitVec (FTy.bits .f32)) = FKind.maximumf.neutral .f32 hφ) (h : Fin 4) (r : Fin 256) :
    multiReduction .maximumf [2] S4x256 s1 0xFF800000#32 hR hφ hacc (ix2 h r)
      = (Finset.univ : Finset (Fin 1024)).fold max (Ideal.ofBits .f32 0xFF800000#32) (fun k => s1 (ix3 h r k)) := by
  refine (Ideal.multiReduction_maximumf_single s1 0xFF800000#32 hR hφ hacc (ix2 h r)).trans ?_
  exact congrArg ((Finset.univ : Finset (Fin 1024)).fold max (Ideal.ofBits .f32 0xFF800000#32))
    (funext fun k => congrArg s1 (lift_ix hR h r k))

/-- The sum over the key axis at `(h, r)`: the sum of the row's 1024 entries. -/
theorem reduceAdd_apply (e0 : FVec Ideal S4x256x1024 .f32) (hR : S4x256x1024.Reduces [2] S4x256) (hφ : FKind.Formats .f32)
    (hacc : (0x00000000#32 : BitVec (FTy.bits .f32)) = FKind.add.neutral .f32 hφ) (h : Fin 4) (r : Fin 256) :
    multiReduction .add [2] S4x256 e0 0x00000000#32 hR hφ hacc (ix2 h r) = ∑ k : Fin 1024, e0 (ix3 h r k) := by
  refine (Ideal.multiReduction_add_single e0 0x00000000#32 hR hφ hacc (ix2 h r)).trans ?_
  exact Finset.sum_congr rfl fun k _ => congrArg e0 (lift_ix hR h r k)

/-! ## A per-row value kept as a column and spread back over the key axis -/

/-- A `[4, 256]` array cast to a column `[4, 256, 1]` and broadcast to `[4, 256, 1024]` reads, at `(h, r, k)`, the array at `(h, r)`. -/
theorem column_apply (m : FVec Ideal S4x256 .f32) (h : Fin 4) (r : Fin 256) (k : Fin 1024) :
    broadcastTo S4x256x1024 (shapeCast S4x256x1 m shapeCasts_S4x256_S4x256x1) broadcasts_S4x256x1_S4x256x1024 (ix3 h r k)
      = m (ix2 h r) :=
  (Cert.Lib.UnitAxis3.broadcastTo_ab1_abc_apply _ broadcasts_S4x256x1_S4x256x1024 h r k).trans
    (Cert.Lib.UnitAxis3.shapeCast_ab_ab1_apply m shapeCasts_S4x256_S4x256x1 h r 0)

/-! ## The stages of the core -/

/-- The scaled scores: the product of queries and keys times the word 0.25. -/
def kscore (qh : FVec Ideal S4x256x16 .bf16) (kh : FVec Ideal S4x1024x16 .bf16) : FVec Ideal S4x256x1024 .f32 :=
  mulf (matmul dot_S4x256x16_S4x1024x16_S4x256x1024_2_2_1_1_0_0 none qh kh (constant S4x256x1024 .f32 0x00000000#32))
    (broadcast S4x256x1024 (Scalar.ofBits .f32 0x3E800000#32))

/-- The row maxima: folded from −∞ over the key axis and joined with −∞ once more. -/
def kmax (s1 : FVec Ideal S4x256x1024 .f32) : FVec Ideal S4x256 .f32 :=
  maximumf (broadcast S4x256 (Scalar.ofBits .f32 0xFF800000#32))
    (multiReduction .maximumf [2] S4x256 s1 0xFF800000#32 reduces_S4x256x1024_S4x256 (.inl rfl) rfl)

/-- The exponentials of the scores less their row's maximum. -/
def kexp (s1 : FVec Ideal S4x256x1024 .f32) : FVec Ideal S4x256x1024 .f32 :=
  exp (subf s1 (broadcastTo S4x256x1024 (shapeCast S4x256x1 (kmax s1) shapeCasts_S4x256_S4x256x1) broadcasts_S4x256x1_S4x256x1024))

/-- The softmax weights: each exponential over its row's sum. -/
def kprob (e0 : FVec Ideal S4x256x1024 .f32) : FVec Ideal S4x256x1024 .bf16 :=
  truncf .bf16 (divf e0 (broadcastTo S4x256x1024
    (shapeCast S4x256x1 (multiReduction .add [2] S4x256 e0 0x00000000#32 reduces_S4x256x1024_S4x256 (.inl rfl) rfl) shapeCasts_S4x256_S4x256x1)
    broadcasts_S4x256x1_S4x256x1024)) bitsLt_bf16_f32

/-- The core is the value product of the weights of the exponentials of the scaled scores. -/
theorem katt_eq (qh : FVec Ideal S4x256x16 .bf16) (kh vh : FVec Ideal S4x1024x16 .bf16) :
    katt qh kh vh
      = matmul dot_S4x256x1024_S4x1024x16_S4x256x16_2_1_1_2_0_0 none (kprob (kexp (kscore qh kh))) vh (constant S4x256x16 .f32 0x00000000#32) := rfl

/-! ### The pointwise steps read at an index -/

/-- Scaling by the word 0.25 multiplies each entry by it. -/
theorem scale_apply (s0 : FVec Ideal S4x256x1024 .f32) (i : S4x256x1024.Idx) :
    mulf s0 (broadcast S4x256x1024 (Scalar.ofBits .f32 0x3E800000#32)) i = s0 i * Ideal.ofBits .f32 0x3E800000#32 := rfl

/-- Joining with −∞ takes each entry's maximum with that word. -/
theorem join_apply (m0 : FVec Ideal S4x256 .f32) (i : S4x256.Idx) :
    maximumf (broadcast S4x256 (Scalar.ofBits .f32 0xFF800000#32)) m0 i = max (Ideal.ofBits .f32 0xFF800000#32) (m0 i) := rfl

/-- The exponential of a difference, entry by entry. -/
theorem expsub_apply (s1 m3 : FVec Ideal S4x256x1024 .f32) (i : S4x256x1024.Idx) :
    exp (subf s1 m3) i = Ideal.exp (s1 i - m3 i) := rfl

/-- The quotient, narrowed, entry by entry: the narrowing is the identity. -/
theorem quot_apply (e0 z2 : FVec Ideal S4x256x1024 .f32) (i : S4x256x1024.Idx) :
    truncf .bf16 (divf e0 z2) bitsLt_bf16_f32 i = Ideal.div (e0 i) (z2 i) := rfl

/-! ### The stages read at an index -/

/-- The scaled score at `(h, r, k)` is the score of row `r`'s query lanes of head `h` against key row `k`. -/
theorem kscore_apply (qh : FVec Ideal S4x256x16 .bf16) (kh : FVec Ideal S4x1024x16 .bf16) (h : Fin 4) (r : Fin 256) (k : Fin 1024) :
    kscore qh kh (ix3 h r k) = score (fun d' => qh (ix3 h r d')) (fun k' d' => kh (ix3 h k' d')) k := by
  unfold kscore score
  refine (scale_apply _ _).trans ?_
  exact congrArg (fun x => x * Ideal.ofBits .f32 0x3E800000#32) (qk_apply qh kh h r k)

/-- The row maximum at `(h, r)` is the maximum of that row of scores. -/
theorem kmax_apply (s1 : FVec Ideal S4x256x1024 .f32) (h : Fin 4) (r : Fin 256) :
    kmax s1 (ix2 h r) = rowMax (fun k => s1 (ix3 h r k)) := by
  unfold kmax rowMax
  refine (join_apply _ _).trans ?_
  exact congrArg (max (Ideal.ofBits .f32 0xFF800000#32)) (reduceMax_apply s1 reduces_S4x256x1024_S4x256 (.inl rfl) rfl h r)

/-- The exponential at `(h, r, k)` is that of the score less its row's maximum. -/
theorem kexp_apply (s1 : FVec Ideal S4x256x1024 .f32) (h : Fin 4) (r : Fin 256) (k : Fin 1024) :
    kexp s1 (ix3 h r k) = Ideal.exp (s1 (ix3 h r k) - rowMax (fun k' => s1 (ix3 h r k'))) := by
  unfold kexp
  refine (expsub_apply _ _ _).trans ?_
  exact congrArg (fun m => Ideal.exp (s1 (ix3 h r k) - m)) ((column_apply (kmax s1) h r k).trans (kmax_apply s1 h r))

/-- The weight at `(h, r, k)` is the entry over its row's sum. -/
theorem kprob_apply (e0 : FVec Ideal S4x256x1024 .f32) (h : Fin 4) (r : Fin 256) (k : Fin 1024) :
    kprob e0 (ix3 h r k) = Ideal.div (e0 (ix3 h r k)) (∑ k' : Fin 1024, e0 (ix3 h r k')) := by
  unfold kprob
  refine (quot_apply _ _ _).trans ?_
  exact congrArg (Ideal.div (e0 (ix3 h r k)))
    ((column_apply _ h r k).trans (reduceAdd_apply e0 reduces_S4x256x1024_S4x256 (.inl rfl) rfl h r))

/-- The core at head `h`, query row `r`, lane `d` is that head's attention of row `r`'s query lanes against the
    head's 1024 key rows and value rows. -/
theorem katt_apply (qh : FVec Ideal S4x256x16 .bf16) (kh vh : FVec Ideal S4x1024x16 .bf16) (h : Fin 4) (r : Fin 256) (d : Fin 16) :
    katt qh kh vh (ix3 h r d)
      = attnH (fun d' => qh (ix3 h r d')) (fun k d' => kh (ix3 h k d')) (fun k d' => vh (ix3 h k d')) d := by
  have hs : (fun k => kscore qh kh (ix3 h r k))
      = score (fun d' => qh (ix3 h r d')) (fun k d' => kh (ix3 h k d')) := funext fun k => kscore_apply qh kh h r k
  have he : ∀ k : Fin 1024, kexp (kscore qh kh) (ix3 h r k)
      = expo (fun d' => qh (ix3 h r d')) (fun k d' => kh (ix3 h k d')) k := fun k => by
    rw [kexp_apply, hs, kscore_apply]
    rfl
  have hp : ∀ k : Fin 1024, kprob (kexp (kscore qh kh)) (ix3 h r k)
      = prob (fun d' => qh (ix3 h r d')) (fun k d' => kh (ix3 h k d')) k := fun k => by
    rw [kprob_apply]
    simp only [he]
    rfl
  rw [katt_eq, pv_apply]
  exact Finset.sum_congr rfl fun k _ => by rw [hp k]

end Cert.KernelIdeal.KerAttn

end
-- ==== Proof.KernelPayload.lean ====
/-
  What one grid point leaves in the output block, read at one element: row `r` of the block, channel `ch h d`, is the
  mixed and projected attention of the block's query row `r` against the slice's 1024 key and value rows.
-/
import proofs.«102288_j12481174962635_2_alg».proof.Proof.Gen.KernelIdeal.Frame
import proofs.«102288_j12481174962635_2_alg».proof.Proof.Spec
import proofs.«102288_j12481174962635_2_alg».proof.Proof.KerAttn
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Payload

open Cert.KernelIdeal Cert.KernelIdeal.Gen Cert.KernelIdeal.KerAttn Idealize.ShloMosaic Idealize.ShloMosaic.ValueIdx Cert.Spec

/-! ## Layout: rows of 64 channels, and 4 heads of 16 lanes -/

section Layout
variable {α : Type}

/-- Rows of 64 channels cast to rows of 4 heads of 16 lanes read, at (r, h, d), the operand at (r, ch h d). -/
theorem split_apply {n : ℕ} (v : (⟨2, ![n, 64]⟩ : Shape).Idx → α)
    (hc : (⟨2, ![n, 64]⟩ : Shape).ShapeCasts ⟨3, ![n, 4, 16]⟩) (r : Fin n) (h : Fin 4) (d : Fin 16) :
    shapeCast ⟨3, ![n, 4, 16]⟩ v hc (ix3 r h d) = v (ix2 r (ch h d)) :=
  shapeCast_apply v hc _ _ (by
    rw [Shape.rowMajor_val_two, Shape.rowMajor_val_three]
    show r.val * 64 + (h.val * 16 + d.val) = (r.val * 4 + h.val) * 16 + d.val
    omega)

/-- Rows of 4 heads of 16 lanes cast to rows of 64 channels read, at (r, ch h d), the operand at (r, h, d). -/
theorem join_apply {n : ℕ} (v : (⟨3, ![n, 4, 16]⟩ : Shape).Idx → α)
    (hc : (⟨3, ![n, 4, 16]⟩ : Shape).ShapeCasts ⟨2, ![n, 64]⟩) (r : Fin n) (h : Fin 4) (d : Fin 16) :
    shapeCast ⟨2, ![n, 64]⟩ v hc (ix2 r (ch h d)) = v (ix3 r h d) :=
  shapeCast_apply v hc _ _ (by
    rw [Shape.rowMajor_val_two, Shape.rowMajor_val_three]
    show (r.val * 4 + h.val) * 16 + d.val = r.val * 64 + (h.val * 16 + d.val)
    omega)

/-- The first two axes swapped: at (j, i, k) the operand at (i, j, k). -/
theorem transpose_ix3_102_apply {a b c : ℕ} (x : (⟨3, ![a, b, c]⟩ : Shape).Idx → α)
    (ht : (⟨3, ![a, b, c]⟩ : Shape).Transposes [1, 0, 2] ⟨3, ![b, a, c]⟩) (j : Fin b) (i : Fin a) (k : Fin c) :
    transpose ⟨3, ![b, a, c]⟩ [1, 0, 2] x ht (ix3 j i k) = x (ix3 i j k) :=
  transpose_apply _ x ht _ _ fun e => match e with | ⟨0, _⟩ => rfl | ⟨1, _⟩ => rfl | ⟨2, _⟩ => rfl

/-- A vector of 64 channels as one row, broadcast over n rows, reads its channel at every row. -/
theorem rowOf_apply {n : ℕ} (w : (⟨1, ![64]⟩ : Shape).Idx → α) (h1 : (⟨1, ![64]⟩ : Shape).ShapeCasts ⟨2, ![1, 64]⟩)
    (h2 : (⟨2, ![1, 64]⟩ : Shape).Broadcasts ⟨2, ![n, 64]⟩) (r : Fin n) (c : Fin 64) :
    broadcastTo ⟨2, ![n, 64]⟩ (shapeCast ⟨2, ![1, 64]⟩ w h1) h2 (ix2 r c) = w (ix1 c) := by
  rw [broadcastTo_1b_ab_apply, shapeCast_a_1a_apply]

end Layout

/-! ## The pieces of the body, each read at an index -/

/-- Rows of 64 channels taken to head-major rows of 16 lanes (cast, narrowing, swap of the first two axes): at
    (h, r, d) the operand's row r at channel ch h d. -/
theorem heads_apply {n : ℕ} (v : FVec Ideal ⟨2, ![n, 64]⟩ .f32)
    (hc : (⟨2, ![n, 64]⟩ : Shape).ShapeCasts ⟨3, ![n, 4, 16]⟩) (hb : FTy.bits .bf16 < FTy.bits .f32)
    (ht : (⟨3, ![n, 4, 16]⟩ : Shape).Transposes [1, 0, 2] ⟨3, ![4, n, 16]⟩) (h : Fin 4) (r : Fin n) (d : Fin 16) :
    transpose ⟨3, ![4, n, 16]⟩ [1, 0, 2] (truncf .bf16 (shapeCast ⟨3, ![n, 4, 16]⟩ v hc) hb : FVec Ideal ⟨3, ![n, 4, 16]⟩ .bf16) ht (ix3 h r d)
      = v (ix2 r (ch h d)) := by
  rw [transpose_ix3_102_apply]
  exact split_apply v hc r h d

/-- A head-major result merged back to rows of 64 channels (swap, cast): at (r, ch h d) the operand at (h, r, d). -/
theorem merged_apply {n : ℕ} (o : FVec Ideal ⟨3, ![4, n, 16]⟩ .f32)
    (ht : (⟨3, ![4, n, 16]⟩ : Shape).Transposes [1, 0, 2] ⟨3, ![n, 4, 16]⟩)
    (hc : (⟨3, ![n, 4, 16]⟩ : Shape).ShapeCasts ⟨2, ![n, 64]⟩) (r : Fin n) (h : Fin 4) (d : Fin 16) :
    shapeCast ⟨2, ![n, 64]⟩ (transpose ⟨3, ![n, 4, 16]⟩ [1, 0, 2] o ht) hc (ix2 r (ch h d)) = o (ix3 h r d) := by
  rw [join_apply, transpose_ix3_102_apply]

/-- Rows scaled and shifted per channel: at (r, c) it is dw of the row's channel and the two vectors' channel. -/
theorem scaleShift_apply {n : ℕ} (v : FVec Ideal ⟨2, ![n, 64]⟩ .f32) (w b : FVec Ideal ⟨1, ![64]⟩ .f32)
    (h1 : (⟨1, ![64]⟩ : Shape).ShapeCasts ⟨2, ![1, 64]⟩) (h2 : (⟨2, ![1, 64]⟩ : Shape).Broadcasts ⟨2, ![n, 64]⟩)
    (r : Fin n) (c : Fin 64) :
    addf (mulf v (broadcastTo ⟨2, ![n, 64]⟩ (shapeCast ⟨2, ![1, 64]⟩ w h1) h2))
        (broadcastTo ⟨2, ![n, 64]⟩ (shapeCast ⟨2, ![1, 64]⟩ b h1) h2) (ix2 r c)
      = dw (v (ix2 r c)) (w (ix1 c)) (b (ix1 c)) := by
  show v (ix2 r c) * broadcastTo ⟨2, ![n, 64]⟩ (shapeCast ⟨2, ![1, 64]⟩ w h1) h2 (ix2 r c)
      + broadcastTo ⟨2, ![n, 64]⟩ (shapeCast ⟨2, ![1, 64]⟩ b h1) h2 (ix2 r c) = _
  rw [rowOf_apply, rowOf_apply]
  rfl

/-! ## The payloads read at an index -/

/-- The query block scaled and shifted (first parameter set). -/
theorem pay5_apply (x0 : Vec Ideal S1x256x64 .f32) (w b : Vec Ideal S64 .f32) (r : Fin 256) (c : Fin 64) :
    k0_pay5 (F := Ideal) x0 w b (ix2 r c) = dw (x0 (ix3 (0 : Fin 1) r c)) (w (ix1 c)) (b (ix1 c)) := by
  unfold k0_pay5 k0_pay2
  refine (scaleShift_apply _ w b _ _ r c).trans ?_
  rw [shapeCast_1ab_ab_apply]

/-- The query block scaled and shifted (second parameter set). -/
theorem pay8_apply (x0 : Vec Ideal S1x256x64 .f32) (w b : Vec Ideal S64 .f32) (r : Fin 256) (c : Fin 64) :
    k0_pay8 (F := Ideal) x0 w b (ix2 r c) = dw (x0 (ix3 (0 : Fin 1) r c)) (w (ix1 c)) (b (ix1 c)) := by
  unfold k0_pay8 k0_pay2
  refine (scaleShift_apply _ w b _ _ r c).trans ?_
  rw [shapeCast_1ab_ab_apply]

/-- The key block scaled and shifted (first parameter set). -/
theorem pay6_apply (x1 : Vec Ideal S1x1024x64 .f32) (w b : Vec Ideal S64 .f32) (k : Fin 1024) (c : Fin 64) :
    k0_pay6 (F := Ideal) x1 w b (ix2 k c) = dw (x1 (ix3 (0 : Fin 1) k c)) (w (ix1 c)) (b (ix1 c)) := by
  unfold k0_pay6 k0_pay3
  refine (scaleShift_apply _ w b _ _ k c).trans ?_
  rw [shapeCast_1ab_ab_apply]

/-- The value block scaled and shifted (first parameter set). -/
theorem pay7_apply (x2 : Vec Ideal S1x1024x64 .f32) (w b : Vec Ideal S64 .f32) (k : Fin 1024) (c : Fin 64) :
    k0_pay7 (F := Ideal) x2 w b (ix2 k c) = dw (x2 (ix3 (0 : Fin 1) k c)) (w (ix1 c)) (b (ix1 c)) := by
  unfold k0_pay7 k0_pay4
  refine (scaleShift_apply _ w b _ _ k c).trans ?_
  rw [shapeCast_1ab_ab_apply]

/-- The query rows head-major. -/
theorem pay11_apply (v : FVec Ideal S256x64 .f32) (h : Fin 4) (r : Fin 256) (d : Fin 16) :
    k0_pay11 (F := Ideal) v (ix3 h r d) = v (ix2 r (ch h d)) := by
  unfold k0_pay11
  exact heads_apply v _ _ _ h r d

/-- The key block scaled, shifted and taken head-major (second parameter set). -/
theorem pay12_apply (x1 : Vec Ideal S1x1024x64 .f32) (w b : Vec Ideal S64 .f32) (h : Fin 4) (k : Fin 1024) (d : Fin 16) :
    k0_pay12 (F := Ideal) (k0_pay3 x1) (k0_pay9 w) b (ix3 h k d)
      = dw (x1 (ix3 (0 : Fin 1) k (ch h d))) (w (ix1 (ch h d))) (b (ix1 (ch h d))) := by
  unfold k0_pay12 k0_pay9 k0_pay3
  refine (heads_apply _ _ _ _ h k d).trans ?_
  refine (scaleShift_apply _ w b _ _ k (ch h d)).trans ?_
  rw [shapeCast_1ab_ab_apply]

/-- The value block scaled, shifted and taken head-major (second parameter set). -/
theorem pay13_apply (x2 : Vec Ideal S1x1024x64 .f32) (w b : Vec Ideal S64 .f32) (h : Fin 4) (k : Fin 1024) (d : Fin 16) :
    k0_pay13 (F := Ideal) (k0_pay4 x2) w b (ix3 h k d)
      = dw (x2 (ix3 (0 : Fin 1) k (ch h d))) (w (ix1 (ch h d))) (b (ix1 (ch h d))) := by
  unfold k0_pay13 k0_pay4
  refine (heads_apply _ _ _ _ h k d).trans ?_
  refine (scaleShift_apply _ w b _ _ k (ch h d)).trans ?_
  rw [shapeCast_1ab_ab_apply]

/-! ## The two attention cores and the mix -/

/-- The first variant's attention, merged to rows of 64 channels: at (r, ch h d) it is head h, lane d of the attention
    of row r of the scaled and shifted queries against all rows of the scaled and shifted keys and values. -/
theorem pay10_apply (v13 : FVec Ideal S256x64 .f32) (v21 v29 : FVec Ideal S1024x64 .f32) (r : Fin 256) (h : Fin 4) (d : Fin 16) :
    k0_pay10 (F := Ideal) v13 v21 v29 (ix2 r (ch h d))
      = attn (fun c => v13 (ix2 r c)) (fun k c => v21 (ix2 k c)) (fun k c => v29 (ix2 k c)) h d := by
  have e : k0_pay10 (F := Ideal) v13 v21 v29
      = shapeCast S256x64 (transpose S256x4x16 [1, 0, 2]
          (katt
            (transpose S4x256x16 [1, 0, 2] (truncf .bf16 (shapeCast S256x4x16 v13 shapeCasts_S256x64_S256x4x16) bitsLt_bf16_f32) transposes_S256x4x16_p1_0_2_S4x256x16)
            (transpose S4x1024x16 [1, 0, 2] (truncf .bf16 (shapeCast S1024x4x16 v21 shapeCasts_S1024x64_S1024x4x16) bitsLt_bf16_f32) transposes_S1024x4x16_p1_0_2_S4x1024x16)
            (transpose S4x1024x16 [1, 0, 2] (truncf .bf16 (shapeCast S1024x4x16 v29 shapeCasts_S1024x64_S1024x4x16) bitsLt_bf16_f32) transposes_S1024x4x16_p1_0_2_S4x1024x16))
          transposes_S4x256x16_p1_0_2_S256x4x16) shapeCasts_S256x4x16_S256x64 := rfl
  rw [e, merged_apply, katt_apply]
  unfold attn
  congr 1
  · funext d'; exact heads_apply v13 _ _ _ h r d'
  · funext k d'; exact heads_apply v21 _ _ _ h k d'
  · funext k d'; exact heads_apply v29 _ _ _ h k d'

/-- The last stage: at (0, r, ch h d) the mix of the first variant's merged rows g and of the second variant's core. -/
theorem pay1_apply (v80 : FVec Ideal S256x64 .f32) (v83 : FVec Ideal S4x256x16 .bf16) (v86 v89 : FVec Ideal S4x1024x16 .bf16)
    (v115 v119 : Vec Ideal S64 .f32) (r : Fin 256) (h : Fin 4) (d : Fin 16) :
    k0_pay1 (F := Ideal) v80 v83 v86 v89 (constant S4x256x1024 .f32 0x00000000#32) v115 v119 (ix3 (0 : Fin 1) r (ch h d))
      = mix (v80 (ix2 r (ch h d))) (katt v83 v86 v89 (ix3 h r d)) (v115 (ix1 (ch h d))) (v119 (ix1 (ch h d))) := by
  have e : k0_pay1 (F := Ideal) v80 v83 v86 v89 (constant S4x256x1024 .f32 0x00000000#32) v115 v119
      = shapeCast S1x256x64 (addf (mulf (mulf (broadcast S256x64 (Scalar.ofBits .f32 0x40000000#32))
            (addf (mulf (broadcast S256x64 (Scalar.ofBits .f32 0x3F000000#32))
                    (shapeCast S256x64 (transpose S256x4x16 [1, 0, 2] (katt v83 v86 v89) transposes_S4x256x16_p1_0_2_S256x4x16) shapeCasts_S256x4x16_S256x64))
                  (mulf (broadcast S256x64 (Scalar.ofBits .f32 0x3F000000#32)) v80)))
            (broadcastTo S256x64 (shapeCast S1x64 v115 shapeCasts_S64_S1x64) broadcasts_S1x64_S256x64))
          (broadcastTo S256x64 (shapeCast S1x64 v119 shapeCasts_S64_S1x64) broadcasts_S1x64_S256x64)) shapeCasts_S256x64_S1x256x64 := rfl
  rw [e, shapeCast_ab_1ab_apply]
  show Ideal.ofBits .f32 0x40000000#32
        * (Ideal.ofBits .f32 0x3F000000#32
            * shapeCast S256x64 (transpose S256x4x16 [1, 0, 2] (katt v83 v86 v89) transposes_S4x256x16_p1_0_2_S256x4x16) shapeCasts_S256x4x16_S256x64 (ix2 r (ch h d))
          + Ideal.ofBits .f32 0x3F000000#32 * v80 (ix2 r (ch h d)))
        * broadcastTo S256x64 (shapeCast S1x64 v115 shapeCasts_S64_S1x64) broadcasts_S1x64_S256x64 (ix2 r (ch h d))
      + broadcastTo S256x64 (shapeCast S1x64 v119 shapeCasts_S64_S1x64) broadcasts_S1x64_S256x64 (ix2 r (ch h d)) = _
  rw [merged_apply, rowOf_apply, rowOf_apply]
  rfl

/-! ## The two variants over the blocks, and the block the body leaves -/

/-- The first variant over the input blocks. -/
theorem first_apply (x0 : Vec Ideal S1x256x64 .f32) (x1 x2 : Vec Ideal S1x1024x64 .f32)
    (x3 x4 x5 x6 x7 x8 : Vec Ideal S64 .f32) (r : Fin 256) (h : Fin 4) (d : Fin 16) :
    k0_pay10 (F := Ideal) (k0_pay5 x0 x3 x4) (k0_pay6 x1 x5 x6) (k0_pay7 x2 x7 x8) (ix2 r (ch h d))
      = attn (fun c => dw (x0 (ix3 (0 : Fin 1) r c)) (x3 (ix1 c)) (x4 (ix1 c)))
          (fun k c => dw (x1 (ix3 (0 : Fin 1) k c)) (x5 (ix1 c)) (x6 (ix1 c)))
          (fun k c => dw (x2 (ix3 (0 : Fin 1) k c)) (x7 (ix1 c)) (x8 (ix1 c))) h d := by
  rw [pay10_apply]
  congr 1
  · funext c; exact pay5_apply x0 x3 x4 r c
  · funext k c; exact pay6_apply x1 x5 x6 k c
  · funext k c; exact pay7_apply x2 x7 x8 k c

/-- The second variant over the input blocks. -/
theorem second_apply (x0 : Vec Ideal S1x256x64 .f32) (x1 x2 : Vec Ideal S1x1024x64 .f32)
    (x9 x10 x11 x12 x13 x14 : Vec Ideal S64 .f32) (r : Fin 256) (h : Fin 4) (d : Fin 16) :
    katt (k0_pay11 (F := Ideal) (k0_pay8 x0 x9 x10)) (k0_pay12 (k0_pay3 x1) (k0_pay9 x11) x12) (k0_pay13 (k0_pay4 x2) x13 x14) (ix3 h r d)
      = attn (fun c => dw (x0 (ix3 (0 : Fin 1) r c)) (x9 (ix1 c)) (x10 (ix1 c)))
          (fun k c => dw (x1 (ix3 (0 : Fin 1) k c)) (x11 (ix1 c)) (x12 (ix1 c)))
          (fun k c => dw (x2 (ix3 (0 : Fin 1) k c)) (x13 (ix1 c)) (x14 (ix1 c))) h d := by
  rw [katt_apply]
  unfold attn
  congr 1
  · funext d'; exact (pay11_apply _ h r d').trans (pay8_apply x0 x9 x10 r (ch h d'))
  · funext k d'; exact pay12_apply x1 x11 x12 h k d'
  · funext k d'; exact pay13_apply x2 x13 x14 h k d'

/-- The output block's element (0, r, ch h d) as a function of the seventeen input blocks. -/
theorem out_at (x0 : Vec Ideal S1x256x64 .f32) (x1 x2 : Vec Ideal S1x1024x64 .f32)
    (x3 x4 x5 x6 x7 x8 x9 x10 x11 x12 x13 x14 x15 x16 : Vec Ideal S64 .f32) (r : Fin 256) (h : Fin 4) (d : Fin 16) :
    out0_17 (F := Ideal) x0 x1 x2 x3 x4 x5 x6 x7 x8 x9 x10 x11 x12 x13 x14 x15 x16 (ix3 (0 : Fin 1) r (ch h d))
      = mix
          (attn (fun c => dw (x0 (ix3 (0 : Fin 1) r c)) (x3 (ix1 c)) (x4 (ix1 c)))
                (fun k c => dw (x1 (ix3 (0 : Fin 1) k c)) (x5 (ix1 c)) (x6 (ix1 c)))
                (fun k c => dw (x2 (ix3 (0 : Fin 1) k c)) (x7 (ix1 c)) (x8 (ix1 c))) h d)
          (attn (fun c => dw (x0 (ix3 (0 : Fin 1) r c)) (x9 (ix1 c)) (x10 (ix1 c)))
                (fun k c => dw (x1 (ix3 (0 : Fin 1) k c)) (x11 (ix1 c)) (x12 (ix1 c)))
                (fun k c => dw (x2 (ix3 (0 : Fin 1) k c)) (x13 (ix1 c)) (x14 (ix1 c))) h d)
          (x15 (ix1 (ch h d))) (x16 (ix1 (ch h d))) := by
  have hz3 : (![0, 0, 0] : Fin 3 → Nat) = fun _ => 0 := funext fun a => by fin_cases a <;> rfl
  have hz1 : (![0] : Fin 1 → Nat) = fun _ => 0 := funext fun a => by fin_cases a <;> rfl
  unfold out0_17
  rw [View.canon_unit_zero hz3]
  simp only [View.ld_unit_zero (S := S1x256x64) hz3, View.ld_unit_zero (S := S1x1024x64) hz3,
    View.ld_unit_zero (S := S64) hz1]
  rw [pay1_apply, first_apply, second_apply]

end Cert.KernelIdeal.Payload

end
-- ==== Proof.KernelValue.lean ====
/-
  From blocks to the array. The kernel's region runs on a grid of 20 slices × 4 tiles of 256 query rows. At point (s, q)
  the query window's block is rows 256 q … 256 q + 255 of slice s, the key and value windows' blocks are all 1024 rows of
  slice s, every parameter window's block is the whole 64-vector, and the output window's block is rows 256 q … of slice s
  of the result. The three sliced inputs are made before the region by a slice of `x` on its leading axis and a reshape
  that drops that unit axis. So what point (s, q) writes back is block (s, q) of ONE whole-array function (`Spec.G`) of
  the argument arrays, the 80 blocks tile the result array, and the array ends holding that function.
-/
import proofs.«102288_j12481174962635_2_alg».proof.Proof.Gen.KernelIdeal.Value
import proofs.«102288_j12481174962635_2_alg».proof.Proof.Spec
import proofs.«102288_j12481174962635_2_alg».proof.Proof.KernelPayload
import Idealize.ShloMosaic.Lib.Pipeline.Value
import Idealize.ShloMosaic.Lib.ValueIdx
import Idealize.ShloMosaic.Lib.StableHlo.Run

noncomputable section

open Idealize.ShloMosaic Idealize.ShloMosaic.TcCoe Idealize.SL.Sem
open Idealize.ShloMosaic.Pipeline (Dat)

namespace Cert.KernelIdeal.ArrValue

open Cert.KernelIdeal Cert.KernelIdeal.Gen Cert.KernelIdeal.Value Idealize.ShloMosaic.ValueIdx Cert.Spec

variable (m : (ℓ : Loc nD τ sig) → Buf (Elt Ideal) ℓ) (ρ : Dev nD → PrngReg)

/-- The argument `x` on core `c`, as a function of its index. -/
abbrev X (c : Dev nD) : S3x20x1024x64.Idx → EReal := m ((c : Thread nD τ).loc main_arg0)

/-! ## The three sliced inputs as the region finds them -/

/-- A slice of `x` at leading offset `j`, the unit axis dropped, read at (s, r, k) is `x` at (j, s, r, k). -/
theorem slice_drop_apply (x : S3x20x1024x64.Idx → EReal) (off : Fin 4 → Nat) (j : Fin 3)
    (hoff : off = ![j.val, 0, 0, 0]) (hs : S3x20x1024x64.Slices off S1x20x1024x64)
    (hc : S1x20x1024x64.ShapeCasts S20x1024x64) (s : Fin 20) (r : Fin 1024) (k : Fin 64) :
    shapeCast S20x1024x64 (extractStridedSlice S1x20x1024x64 off x hs) hc (ix3 s r k) = x (ix4 j s r k) := by
  subst hoff
  rw [shapeCast_apply _ hc (ix3 s r k) (ix4 (0 : Fin 1) s r k) (by
    rw [Shape.rowMajor_val_four, Shape.rowMajor_val_three]
    show ((0 * 20 + s.val) * 1024 + r.val) * 64 + k.val = (s.val * 1024 + r.val) * 64 + k.val
    omega)]
  exact extractStridedSlice_apply _ x hs (ix4 (0 : Fin 1) s r k) (ix4 j s r k) (fun a => by
    match a with
    | ⟨0, _⟩ => show j.val = j.val + 0; omega
    | ⟨1, _⟩ => show s.val = 0 + s.val; omega
    | ⟨2, _⟩ => show r.val = 0 + r.val; omega
    | ⟨3, _⟩ => show k.val = 0 + k.val; omega)

/-- The query input (part 0 of `x`) as the region finds it. -/
theorem V_v1 (c : Dev nD) (s : Fin 20) (r : Fin 1024) (k : Fin 64) :
    (V m c main_v1 : S20x1024x64.Idx → EReal) (ix3 s r k) = X m c (ix4 (0 : Fin 3) s r k) := by
  have e : (V m c main_v1 : S20x1024x64.Idx → EReal)
      = shapeCast S20x1024x64 (extractStridedSlice S1x20x1024x64 ![0, 0, 0, 0] (X m c) slices_S3x20x1024x64_S1x20x1024x64_0_0_0_0) shapeCasts_S1x20x1024x64_S20x1024x64 := by
    dsimp only [Gen.V, Gen.hostOps0]; after_results; rfl
  rw [e]
  exact slice_drop_apply (X m c) _ 0 rfl _ _ s r k

/-- The key input (part 1 of `x`) as the region finds it. -/
theorem V_v3 (c : Dev nD) (s : Fin 20) (r : Fin 1024) (k : Fin 64) :
    (V m c main_v3 : S20x1024x64.Idx → EReal) (ix3 s r k) = X m c (ix4 (1 : Fin 3) s r k) := by
  have e : (V m c main_v3 : S20x1024x64.Idx → EReal)
      = shapeCast S20x1024x64 (extractStridedSlice S1x20x1024x64 ![1, 0, 0, 0] (X m c) slices_S3x20x1024x64_S1x20x1024x64_1_0_0_0) shapeCasts_S1x20x1024x64_S20x1024x64 := by
    dsimp only [Gen.V, Gen.hostOps0]; after_results; rfl
  rw [e]
  exact slice_drop_apply (X m c) _ 1 rfl _ _ s r k

/-- The value input (part 2 of `x`) as the region finds it. -/
theorem V_v5 (c : Dev nD) (s : Fin 20) (r : Fin 1024) (k : Fin 64) :
    (V m c main_v5 : S20x1024x64.Idx → EReal) (ix3 s r k) = X m c (ix4 (2 : Fin 3) s r k) := by
  have e : (V m c main_v5 : S20x1024x64.Idx → EReal)
      = shapeCast S20x1024x64 (extractStridedSlice S1x20x1024x64 ![2, 0, 0, 0] (X m c) slices_S3x20x1024x64_S1x20x1024x64_2_0_0_0) shapeCasts_S1x20x1024x64_S20x1024x64 := by
    dsimp only [Gen.V, Gen.hostOps0]; after_results; rfl
  rw [e]
  exact slice_drop_apply (X m c) _ 2 rfl _ _ s r k

/-! ## The index maps over the grid -/

/-- The printed index maps, decided over the 80 points: the query window moves with the output window, the key and
    value windows with its slice only, and the output's block indices stay in their ranges. -/
theorem idx_facts : ∀ t : Fin cfg0.N,
      win0_0.index t (0 : Fin 3) = win0_17.index t (0 : Fin 3) ∧ win0_0.index t (1 : Fin 3) = win0_17.index t (1 : Fin 3)
    ∧ win0_0.index t (2 : Fin 3) = 0
    ∧ win0_1.index t (0 : Fin 3) = win0_17.index t (0 : Fin 3) ∧ win0_1.index t (1 : Fin 3) = 0 ∧ win0_1.index t (2 : Fin 3) = 0
    ∧ win0_2.index t (0 : Fin 3) = win0_17.index t (0 : Fin 3) ∧ win0_2.index t (1 : Fin 3) = 0 ∧ win0_2.index t (2 : Fin 3) = 0
    ∧ win0_17.index t (0 : Fin 3) ≤ 19 ∧ win0_17.index t (1 : Fin 3) ≤ 3 ∧ win0_17.index t (2 : Fin 3) = 0 :=
  (by decide +kernel : ∀ t : Fin grid0.N, _)

/-- Every parameter window's one block is the whole vector at every point. -/
theorem idx_facts_p : ∀ t : Fin cfg0.N,
      win0_3.index t (0 : Fin 1) = 0 ∧ win0_4.index t (0 : Fin 1) = 0 ∧ win0_5.index t (0 : Fin 1) = 0 ∧ win0_6.index t (0 : Fin 1) = 0
    ∧ win0_7.index t (0 : Fin 1) = 0 ∧ win0_8.index t (0 : Fin 1) = 0 ∧ win0_9.index t (0 : Fin 1) = 0 ∧ win0_10.index t (0 : Fin 1) = 0
    ∧ win0_11.index t (0 : Fin 1) = 0 ∧ win0_12.index t (0 : Fin 1) = 0 ∧ win0_13.index t (0 : Fin 1) = 0 ∧ win0_14.index t (0 : Fin 1) = 0
    ∧ win0_15.index t (0 : Fin 1) = 0 ∧ win0_16.index t (0 : Fin 1) = 0 :=
  (by decide +kernel : ∀ t : Fin grid0.N, _)

/-- Every (slice, tile) pair is some point's output block. -/
theorem idx_onto : ∀ (q0 : Fin 20) (q1 : Fin 4), ∃ t : Fin cfg0.N, win0_17.index t = ![q0.val, q1.val, 0] :=
  (by decide +kernel : ∀ (q0 : Fin 20) (q1 : Fin 4), ∃ t : Fin grid0.N, win0_17.index t = ![q0.val, q1.val, 0])

/-! ## The windows' blocks at a point -/

abbrev P1 (c : Dev nD) : S64.Idx → EReal := m ((c : Thread nD τ).loc main_arg1)
abbrev P2 (c : Dev nD) : S64.Idx → EReal := m ((c : Thread nD τ).loc main_arg2)
abbrev P3 (c : Dev nD) : S64.Idx → EReal := m ((c : Thread nD τ).loc main_arg3)
abbrev P4 (c : Dev nD) : S64.Idx → EReal := m ((c : Thread nD τ).loc main_arg4)
abbrev P5 (c : Dev nD) : S64.Idx → EReal := m ((c : Thread nD τ).loc main_arg5)
abbrev P6 (c : Dev nD) : S64.Idx → EReal := m ((c : Thread nD τ).loc main_arg6)
abbrev P7 (c : Dev nD) : S64.Idx → EReal := m ((c : Thread nD τ).loc main_arg7)
abbrev P8 (c : Dev nD) : S64.Idx → EReal := m ((c : Thread nD τ).loc main_arg8)
abbrev P9 (c : Dev nD) : S64.Idx → EReal := m ((c : Thread nD τ).loc main_arg9)
abbrev P10 (c : Dev nD) : S64.Idx → EReal := m ((c : Thread nD τ).loc main_arg10)
abbrev P11 (c : Dev nD) : S64.Idx → EReal := m ((c : Thread nD τ).loc main_arg11)
abbrev P12 (c : Dev nD) : S64.Idx → EReal := m ((c : Thread nD τ).loc main_arg12)
abbrev P13 (c : Dev nD) : S64.Idx → EReal := m ((c : Thread nD τ).loc main_arg13)
abbrev P14 (c : Dev nD) : S64.Idx → EReal := m ((c : Thread nD τ).loc main_arg14)

/-- Row `r` of tile `q`. -/
def row (q : Fin 4) (r : Fin 256) : Fin 1024 := ⟨q.val * 256 + r.val, by omega⟩

/-- The query block at a point whose output block is (s, q): its row `r`, channel `k` is `x` at (0, s, 256 q + r, k). -/
theorem blkQ (c : Dev nD) (t : Fin cfg0.N) (s : Fin 20) (q : Fin 4)
    (hs : win0_17.index t (0 : Fin 3) = s.val) (hq : win0_17.index t (1 : Fin 3) = q.val) (r : Fin 256) (k : Fin 64) :
    (iblk m c 0 t : Vec Ideal S1x256x64 .f32) (ix3 (0 : Fin 1) r k) = X m c (ix4 (0 : Fin 3) s (row q r) k) := by
  obtain ⟨e0, e1, e2, -⟩ := idx_facts t
  rw [← V_v1 m c s (row q r) k]
  unfold iblk
  rw [View.read_apply]
  show V m c main_v1 _ = V m c main_v1 _
  congr 1
  funext a; apply Fin.ext
  match a with
  | ⟨0, _⟩ => show win0_0.index t (0 : Fin 3) * 1 + 1 * 0 = s.val; omega
  | ⟨1, _⟩ => show win0_0.index t (1 : Fin 3) * 256 + 1 * r.val = q.val * 256 + r.val; omega
  | ⟨2, _⟩ => show win0_0.index t (2 : Fin 3) * 64 + 1 * k.val = k.val; omega

/-- The key block at such a point: all 1024 rows of slice `s` of part 1 of `x`. -/
theorem blkK (c : Dev nD) (t : Fin cfg0.N) (s : Fin 20)
    (hs : win0_17.index t (0 : Fin 3) = s.val) (r : Fin 1024) (k : Fin 64) :
    (iblk m c 1 t : Vec Ideal S1x1024x64 .f32) (ix3 (0 : Fin 1) r k) = X m c (ix4 (1 : Fin 3) s r k) := by
  obtain ⟨-, -, -, e0, e1, e2, -⟩ := idx_facts t
  rw [← V_v3 m c s r k]
  unfold iblk
  rw [View.read_apply]
  show V m c main_v3 _ = V m c main_v3 _
  congr 1
  funext a; apply Fin.ext
  match a with
  | ⟨0, _⟩ => show win0_1.index t (0 : Fin 3) * 1 + 1 * 0 = s.val; omega
  | ⟨1, _⟩ => show win0_1.index t (1 : Fin 3) * 1024 + 1 * r.val = r.val; omega
  | ⟨2, _⟩ => show win0_1.index t (2 : Fin 3) * 64 + 1 * k.val = k.val; omega

/-- The value block at such a point: all 1024 rows of slice `s` of part 2 of `x`. -/
theorem blkV (c : Dev nD) (t : Fin cfg0.N) (s : Fin 20)
    (hs : win0_17.index t (0 : Fin 3) = s.val) (r : Fin 1024) (k : Fin 64) :
    (iblk m c 2 t : Vec Ideal S1x1024x64 .f32) (ix3 (0 : Fin 1) r k) = X m c (ix4 (2 : Fin 3) s r k) := by
  obtain ⟨-, -, -, -, -, -, e0, e1, e2, -⟩ := idx_facts t
  rw [← V_v5 m c s r k]
  unfold iblk
  rw [View.read_apply]
  show V m c main_v5 _ = V m c main_v5 _
  congr 1
  funext a; apply Fin.ext
  match a with
  | ⟨0, _⟩ => show win0_2.index t (0 : Fin 3) * 1 + 1 * 0 = s.val; omega
  | ⟨1, _⟩ => show win0_2.index t (1 : Fin 3) * 1024 + 1 * r.val = r.val; omega
  | ⟨2, _⟩ => show win0_2.index t (2 : Fin 3) * 64 + 1 * k.val = k.val; omega

/-! Each parameter window's block is its whole argument vector. -/

theorem blkP1 (c : Dev nD) (t : Fin cfg0.N) (k : Fin 64) :
    (iblk m c 3 t : Vec Ideal S64 .f32) (ix1 k) = P1 m c (ix1 k) := by
  have e := (idx_facts_p t).1
  unfold iblk
  rw [View.read_apply]
  show V m c main_arg1 _ = m ((c : Thread nD τ).loc main_arg1) _
  rw [V_main_arg1]
  congr 1
  funext a; apply Fin.ext
  match a with
  | ⟨0, _⟩ => show win0_3.index t (0 : Fin 1) * 64 + 1 * k.val = k.val; omega

theorem blkP2 (c : Dev nD) (t : Fin cfg0.N) (k : Fin 64) :
    (iblk m c 4 t : Vec Ideal S64 .f32) (ix1 k) = P2 m c (ix1 k) := by
  have e := (idx_facts_p t).2.1
  unfold iblk
  rw [View.read_apply]
  show V m c main_arg2 _ = m ((c : Thread nD τ).loc main_arg2) _
  rw [V_main_arg2]
  congr 1
  funext a; apply Fin.ext
  match a with
  | ⟨0, _⟩ => show win0_4.index t (0 : Fin 1) * 64 + 1 * k.val = k.val; omega

theorem blkP3 (c : Dev nD) (t : Fin cfg0.N) (k : Fin 64) :
    (iblk m c 5 t : Vec Ideal S64 .f32) (ix1 k) = P3 m c (ix1 k) := by
  have e := (idx_facts_p t).2.2.1
  unfold iblk
  rw [View.read_apply]
  show V m c main_arg3 _ = m ((c : Thread nD τ).loc main_arg3) _
  rw [V_main_arg3]
  congr 1
  funext a; apply Fin.ext
  match a with
  | ⟨0, _⟩ => show win0_5.index t (0 : Fin 1) * 64 + 1 * k.val = k.val; omega

theorem blkP4 (c : Dev nD) (t : Fin cfg0.N) (k : Fin 64) :
    (iblk m c 6 t : Vec Ideal S64 .f32) (ix1 k) = P4 m c (ix1 k) := by
  have e := (idx_facts_p t).2.2.2.1
  unfold iblk
  rw [View.read_apply]
  show V m c main_arg4 _ = m ((c : Thread nD τ).loc main_arg4) _
  rw [V_main_arg4]
  congr 1
  funext a; apply Fin.ext
  match a with
  | ⟨0, _⟩ => show win0_6.index t (0 : Fin 1) * 64 + 1 * k.val = k.val; omega

theorem blkP5 (c : Dev nD) (t : Fin cfg0.N) (k : Fin 64) :
    (iblk m c 7 t : Vec Ideal S64 .f32) (ix1 k) = P5 m c (ix1 k) := by
  have e := (idx_facts_p t).2.2.2.2.1
  unfold iblk
  rw [View.read_apply]
  show V m c main_arg5 _ = m ((c : Thread nD τ).loc main_arg5) _
  rw [V_main_arg5]
  congr 1
  funext a; apply Fin.ext
  match a with
  | ⟨0, _⟩ => show win0_7.index t (0 : Fin 1) * 64 + 1 * k.val = k.val; omega

theorem blkP6 (c : Dev nD) (t : Fin cfg0.N) (k : Fin 64) :
    (iblk m c 8 t : Vec Ideal S64 .f32) (ix1 k) = P6 m c (ix1 k) := by
  have e := (idx_facts_p t).2.2.2.2.2.1
  unfold iblk
  rw [View.read_apply]
  show V m c main_arg6 _ = m ((c : Thread nD τ).loc main_arg6) _
  rw [V_main_arg6]
  congr 1
  funext a; apply Fin.ext
  match a with
  | ⟨0, _⟩ => show win0_8.index t (0 : Fin 1) * 64 + 1 * k.val = k.val; omega

theorem blkP7 (c : Dev nD) (t : Fin cfg0.N) (k : Fin 64) :
    (iblk m c 9 t : Vec Ideal S64 .f32) (ix1 k) = P7 m c (ix1 k) := by
  have e := (idx_facts_p t).2.2.2.2.2.2.1
  unfold iblk
  rw [View.read_apply]
  show V m c main_arg7 _ = m ((c : Thread nD τ).loc main_arg7) _
  rw [V_main_arg7]
  congr 1
  funext a; apply Fin.ext
  match a with
  | ⟨0, _⟩ => show win0_9.index t (0 : Fin 1) * 64 + 1 * k.val = k.val; omega

theorem blkP8 (c : Dev nD) (t : Fin cfg0.N) (k : Fin 64) :
    (iblk m c 10 t : Vec Ideal S64 .f32) (ix1 k) = P8 m c (ix1 k) := by
  have e := (idx_facts_p t).2.2.2.2.2.2.2.1
  unfold iblk
  rw [View.read_apply]
  show V m c main_arg8 _ = m ((c : Thread nD τ).loc main_arg8) _
  rw [V_main_arg8]
  congr 1
  funext a; apply Fin.ext
  match a with
  | ⟨0, _⟩ => show win0_10.index t (0 : Fin 1) * 64 + 1 * k.val = k.val; omega

theorem blkP9 (c : Dev nD) (t : Fin cfg0.N) (k : Fin 64) :
    (iblk m c 11 t : Vec Ideal S64 .f32) (ix1 k) = P9 m c (ix1 k) := by
  have e := (idx_facts_p t).2.2.2.2.2.2.2.2.1
  unfold iblk
  rw [View.read_apply]
  show V m c main_arg9 _ = m ((c : Thread nD τ).loc main_arg9) _
  rw [V_main_arg9]
  congr 1
  funext a; apply Fin.ext
  match a with
  | ⟨0, _⟩ => show win0_11.index t (0 : Fin 1) * 64 + 1 * k.val = k.val; omega

theorem blkP10 (c : Dev nD) (t : Fin cfg0.N) (k : Fin 64) :
    (iblk m c 12 t : Vec Ideal S64 .f32) (ix1 k) = P10 m c (ix1 k) := by
  have e := (idx_facts_p t).2.2.2.2.2.2.2.2.2.1
  unfold iblk
  rw [View.read_apply]
  show V m c main_arg10 _ = m ((c : Thread nD τ).loc main_arg10) _
  rw [V_main_arg10]
  congr 1
  funext a; apply Fin.ext
  match a with
  | ⟨0, _⟩ => show win0_12.index t (0 : Fin 1) * 64 + 1 * k.val = k.val; omega

theorem blkP11 (c : Dev nD) (t : Fin cfg0.N) (k : Fin 64) :
    (iblk m c 13 t : Vec Ideal S64 .f32) (ix1 k) = P11 m c (ix1 k) := by
  have e := (idx_facts_p t).2.2.2.2.2.2.2.2.2.2.1
  unfold iblk
  rw [View.read_apply]
  show V m c main_arg11 _ = m ((c : Thread nD τ).loc main_arg11) _
  rw [V_main_arg11]
  congr 1
  funext a; apply Fin.ext
  match a with
  | ⟨0, _⟩ => show win0_13.index t (0 : Fin 1) * 64 + 1 * k.val = k.val; omega

theorem blkP12 (c : Dev nD) (t : Fin cfg0.N) (k : Fin 64) :
    (iblk m c 14 t : Vec Ideal S64 .f32) (ix1 k) = P12 m c (ix1 k) := by
  have e := (idx_facts_p t).2.2.2.2.2.2.2.2.2.2.2.1
  unfold iblk
  rw [View.read_apply]
  show V m c main_arg12 _ = m ((c : Thread nD τ).loc main_arg12) _
  rw [V_main_arg12]
  congr 1
  funext a; apply Fin.ext
  match a with
  | ⟨0, _⟩ => show win0_14.index t (0 : Fin 1) * 64 + 1 * k.val = k.val; omega

theorem blkP13 (c : Dev nD) (t : Fin cfg0.N) (k : Fin 64) :
    (iblk m c 15 t : Vec Ideal S64 .f32) (ix1 k) = P13 m c (ix1 k) := by
  have e := (idx_facts_p t).2.2.2.2.2.2.2.2.2.2.2.2.1
  unfold iblk
  rw [View.read_apply]
  show V m c main_arg13 _ = m ((c : Thread nD τ).loc main_arg13) _
  rw [V_main_arg13]
  congr 1
  funext a; apply Fin.ext
  match a with
  | ⟨0, _⟩ => show win0_15.index t (0 : Fin 1) * 64 + 1 * k.val = k.val; omega

theorem blkP14 (c : Dev nD) (t : Fin cfg0.N) (k : Fin 64) :
    (iblk m c 16 t : Vec Ideal S64 .f32) (ix1 k) = P14 m c (ix1 k) := by
  have e := (idx_facts_p t).2.2.2.2.2.2.2.2.2.2.2.2.2
  unfold iblk
  rw [View.read_apply]
  show V m c main_arg14 _ = m ((c : Thread nD τ).loc main_arg14) _
  rw [V_main_arg14]
  congr 1
  funext a; apply Fin.ext
  match a with
  | ⟨0, _⟩ => show win0_16.index t (0 : Fin 1) * 64 + 1 * k.val = k.val; omega

/-! ## What a point writes back, the cover, and the array after the run -/

theorem hz3 : (![0, 0, 0] : Fin 3 → Nat) = fun _ => 0 := funext fun a => by fin_cases a <;> rfl

/-- The result array as one function of the argument arrays on core `c`. -/
abbrev result (c : Dev nD) : S20x1024x64.Idx → EReal := G (X m c) (P1 m c) (P2 m c) (P3 m c) (P4 m c) (P5 m c) (P6 m c) (P7 m c) (P8 m c) (P9 m c) (P10 m c) (P11 m c) (P12 m c) (P13 m c) (P14 m c)

/-- WHAT POINT `t` WRITES BACK is block `t` of the result function: the block's row `r` is query row `256 q + r` of
    slice `s`, which the body's payload sets against that slice's keys and values. -/
theorem flushed_eq (c : Dev nD) (t : Fin cfg0.N) :
    (dats m 0 c).flushed 17 t = ((cfg0.win 17).blk t).view.read (Elt Ideal) (result m c) := by
  obtain ⟨-, -, -, -, -, -, -, -, -, b0, b1, b2⟩ := idx_facts t
  obtain ⟨s, hs⟩ : ∃ s : Fin 20, win0_17.index t (0 : Fin 3) = s.val := ⟨⟨win0_17.index t (0 : Fin 3), by omega⟩, rfl⟩
  obtain ⟨q, hq⟩ : ∃ q : Fin 4, win0_17.index t (1 : Fin 3) = q.val := ⟨⟨win0_17.index t (1 : Fin 3), by omega⟩, rfl⟩
  rw [Value.flushed17]
  funext y
  rw [View.read_apply]
  obtain ⟨u, r, k, rfl⟩ : ∃ (u : Fin 1) (r : Fin 256) (k : Fin 64), y = ix3 u r k := ⟨y 0, y 1, y 2, eq_ix3 y⟩
  obtain rfl : u = 0 := Subsingleton.elim _ _
  have hemb : ((cfg0.win 17).blk t).view.emb (ix3 (0 : Fin 1) r k) = ix3 s (row q r) k := by
    funext a; apply Fin.ext
    match a with
    | ⟨0, _⟩ => show win0_17.index t (0 : Fin 3) * 1 + 1 * 0 = s.val; omega
    | ⟨1, _⟩ => show win0_17.index t (1 : Fin 3) * 256 + 1 * r.val = q.val * 256 + r.val; omega
    | ⟨2, _⟩ => show win0_17.index t (2 : Fin 3) * 64 + 1 * k.val = k.val; omega
  show out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (ix3 (0 : Fin 1) r k) = result m c (((cfg0.win 17).blk t).view.emb (ix3 (0 : Fin 1) r k))
  rw [hemb, ← ch_hd_ln k]
  refine (Payload.out_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) r (hd k) (ln k)).trans ?_
  unfold result
  rw [G_ix3]
  unfold outAt attnAt dwRow
  simp only [blkQ m c t s q hs hq, blkK m c t s hs, blkV m c t s hs, blkP1 m c t, blkP2 m c t, blkP3 m c t, blkP4 m c t, blkP5 m c t, blkP6 m c t, blkP7 m c t, blkP8 m c t, blkP9 m c t, blkP10 m c t, blkP11 m c t, blkP12 m c t, blkP13 m c t, blkP14 m c t]

/-- An index of the array is in point `t`'s block iff each coordinate is in the block's range on its axis. -/
theorem mem_blk (t : Fin cfg0.N) (i : S20x1024x64.Idx) :
    i ∈ ((cfg0.win 17).blk t).view.set ↔ ∀ a : Fin 3, win0_17.index t a * S1x256x64.size a ≤ (i a).val ∧ (i a).val < win0_17.index t a * S1x256x64.size a + S1x256x64.size a := by
  show i ∈ ((View.whole main_v6).slice (win0_17.rect t)).set ↔ _
  rw [View.set_slice_whole, Rect.mem_set_unit]
  exact Iff.rfl

/-- The 80 output blocks tile the result array: the point whose block holds row `r` of slice `s` is (s, r / 256). -/
theorem cover (i : S20x1024x64.Idx) : ∃ t : Fin cfg0.N, (cfg0.win 17).flush t = true ∧ i ∈ ((cfg0.win 17).blk t).view.set := by
  have hi0 : (i 0).val < 20 := (i 0).isLt
  have hi1 : (i 1).val < 1024 := (i 1).isLt
  have hi2 : (i 2).val < 64 := (i 2).isLt
  obtain ⟨t, ht⟩ := idx_onto ⟨(i 0).val, hi0⟩ ⟨(i 1).val / 256, by omega⟩
  have q0 : win0_17.index t (0 : Fin 3) = (i 0).val := congrFun ht 0
  have q1 : win0_17.index t (1 : Fin 3) = (i 1).val / 256 := congrFun ht 1
  have q2 : win0_17.index t (2 : Fin 3) = 0 := congrFun ht 2
  refine ⟨t, flush0_17 t, ?_⟩
  rw [mem_blk]
  intro a
  match a with
  | ⟨0, _⟩ => show win0_17.index t (0 : Fin 3) * 1 ≤ (i 0).val ∧ (i 0).val < win0_17.index t (0 : Fin 3) * 1 + 1; omega
  | ⟨1, _⟩ => show win0_17.index t (1 : Fin 3) * 256 ≤ (i 1).val ∧ (i 1).val < win0_17.index t (1 : Fin 3) * 256 + 256; omega
  | ⟨2, _⟩ => show win0_17.index t (2 : Fin 3) * 64 ≤ (i 2).val ∧ (i 2).val < win0_17.index t (2 : Fin 3) * 64 + 64; omega

/-- THE ARRAY after the run is the result function of the argument arrays. -/
theorem final (c : Dev nD) : (dats m 0 c).arrAt 17 cfg0.N = result m c :=
  (dats m 0 c).arrAt_eq_of_cover 17 (result m c) (fun t _ => flushed_eq m c t) cover

/-- The frame run re-posted: the result array at its function of the arguments, the arguments unchanged. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨(h c).1.trans (final m c), (h c).2⟩) (Value.run_blocks m ρ)

end Cert.KernelIdeal.ArrValue

end
-- ==== Proof.RefCore.lean ====
/-
  The reference's attention core read at one element: the head-major result at slice `s`, head `h`, row `r`,
  lane `d` is one head's attention (`Spec.attnH`) of that row's query lanes against the head's 1024 key and value
  rows of the slice — for the first ("global") and for the second ("local") parameter set.
-/
import proofs.«102288_j12481174962635_2_alg».proof.Proof.Gen.ReferenceIdeal.Read
import proofs.«102288_j12481174962635_2_alg».proof.Proof.Spec
import Idealize.ShloMosaic.Lib.ValueIdx
import Idealize.ShloMosaic.PureOps.Ideal.Laws

noncomputable section

namespace Cert.ReferenceIdeal.RefCore

open Cert.ReferenceIdeal Cert.ReferenceIdeal.Gen Cert.ReferenceIdeal.Read Idealize.ShloMosaic Idealize.ShloMosaic.ValueIdx Cert.Spec

/-! ## Where the operations read their operands, at explicit coordinates -/

/-- The score product reads the query row's lane d' -/
private theorem lidx_qk (s : Fin 20) (h : Fin 4) (r k : Fin 1024) (d' : Fin 16) :
    lidx_main_v30 (ix4 s h r k) d' = ix4 s h r d' :=
  funext fun a => Fin.ext (by match a with | ⟨0, _⟩ => rfl | ⟨1, _⟩ => rfl | ⟨2, _⟩ => rfl | ⟨3, _⟩ => rfl)

/-- and key row k's lane d'. -/
private theorem ridx_qk (s : Fin 20) (h : Fin 4) (r k : Fin 1024) (d' : Fin 16) :
    ridx_main_v30 (ix4 s h r k) d' = ix4 s h k d' :=
  funext fun a => Fin.ext (by match a with | ⟨0, _⟩ => rfl | ⟨1, _⟩ => rfl | ⟨2, _⟩ => rfl | ⟨3, _⟩ => rfl)

/-- A row's statistic, broadcast back over the keys, is read at the row. -/
private theorem idx_bcast (s : Fin 20) (h : Fin 4) (r k : Fin 1024) :
    idx_main_v36 (idx_main_v37 (ix4 s h r k)) = ix3 s h r :=
  funext fun a => Fin.ext (by match a with | ⟨0, _⟩ => rfl | ⟨1, _⟩ => rfl | ⟨2, _⟩ => rfl)

/-- Likewise for the second broadcast pair (the row's sum). -/
private theorem idx_bcast' (s : Fin 20) (h : Fin 4) (r k : Fin 1024) :
    idx_main_v41 (idx_main_v42 (ix4 s h r k)) = ix3 s h r :=
  funext fun a => Fin.ext (by match a with | ⟨0, _⟩ => rfl | ⟨1, _⟩ => rfl | ⟨2, _⟩ => rfl)

/-- The sum over the keys reads the row's entry k. -/
private theorem idx_sum (s : Fin 20) (h : Fin 4) (r k : Fin 1024) :
    idx_main_v40 (ix3 s h r) k = ix4 s h r k :=
  funext fun a => Fin.ext (by match a with | ⟨0, _⟩ => rfl | ⟨1, _⟩ => rfl | ⟨2, _⟩ => rfl | ⟨3, _⟩ => rfl)

/-- The weighted sum reads the row's weight for key k -/
private theorem lidx_pv (s : Fin 20) (h : Fin 4) (r : Fin 1024) (d : Fin 16) (k : Fin 1024) :
    lidx_main_v44 (ix4 s h r d) k = ix4 s h r k :=
  funext fun a => Fin.ext (by match a with | ⟨0, _⟩ => rfl | ⟨1, _⟩ => rfl | ⟨2, _⟩ => rfl | ⟨3, _⟩ => rfl)

/-- and value row k's lane d. -/
private theorem ridx_pv (s : Fin 20) (h : Fin 4) (r : Fin 1024) (d : Fin 16) (k : Fin 1024) :
    ridx_main_v44 (ix4 s h r d) k = ix4 s h k d :=
  funext fun a => Fin.ext (by match a with | ⟨0, _⟩ => rfl | ⟨1, _⟩ => rfl | ⟨2, _⟩ => rfl | ⟨3, _⟩ => rfl)

/-- The same index identities for the second variant's operations: the score product reads the query row's lane d' -/
private theorem lidx_qk_l (s : Fin 20) (h : Fin 4) (r k : Fin 1024) (d' : Fin 16) :
    lidx_main_v71 (ix4 s h r k) d' = ix4 s h r d' :=
  funext fun a => Fin.ext (by match a with | ⟨0, _⟩ => rfl | ⟨1, _⟩ => rfl | ⟨2, _⟩ => rfl | ⟨3, _⟩ => rfl)

/-- and key row k's lane d'. -/
private theorem ridx_qk_l (s : Fin 20) (h : Fin 4) (r k : Fin 1024) (d' : Fin 16) :
    ridx_main_v71 (ix4 s h r k) d' = ix4 s h k d' :=
  funext fun a => Fin.ext (by match a with | ⟨0, _⟩ => rfl | ⟨1, _⟩ => rfl | ⟨2, _⟩ => rfl | ⟨3, _⟩ => rfl)

/-- A row's statistic, broadcast back over the keys, is read at the row. -/
private theorem idx_bcast_l (s : Fin 20) (h : Fin 4) (r k : Fin 1024) :
    idx_main_v77 (idx_main_v78 (ix4 s h r k)) = ix3 s h r :=
  funext fun a => Fin.ext (by match a with | ⟨0, _⟩ => rfl | ⟨1, _⟩ => rfl | ⟨2, _⟩ => rfl)

/-- Likewise for the second broadcast pair (the row's sum). -/
private theorem idx_bcast_l' (s : Fin 20) (h : Fin 4) (r k : Fin 1024) :
    idx_main_v82 (idx_main_v83 (ix4 s h r k)) = ix3 s h r :=
  funext fun a => Fin.ext (by match a with | ⟨0, _⟩ => rfl | ⟨1, _⟩ => rfl | ⟨2, _⟩ => rfl)

/-- The sum over the keys reads the row's entry k. -/
private theorem idx_sum_l (s : Fin 20) (h : Fin 4) (r k : Fin 1024) :
    idx_main_v81 (ix3 s h r) k = ix4 s h r k :=
  funext fun a => Fin.ext (by match a with | ⟨0, _⟩ => rfl | ⟨1, _⟩ => rfl | ⟨2, _⟩ => rfl | ⟨3, _⟩ => rfl)

/-- The weighted sum reads the row's weight for key k -/
private theorem lidx_pv_l (s : Fin 20) (h : Fin 4) (r : Fin 1024) (d : Fin 16) (k : Fin 1024) :
    lidx_main_v85 (ix4 s h r d) k = ix4 s h r k :=
  funext fun a => Fin.ext (by match a with | ⟨0, _⟩ => rfl | ⟨1, _⟩ => rfl | ⟨2, _⟩ => rfl | ⟨3, _⟩ => rfl)

/-- and value row k's lane d. -/
private theorem ridx_pv_l (s : Fin 20) (h : Fin 4) (r : Fin 1024) (d : Fin 16) (k : Fin 1024) :
    ridx_main_v85 (ix4 s h r d) k = ix4 s h k d :=
  funext fun a => Fin.ext (by match a with | ⟨0, _⟩ => rfl | ⟨1, _⟩ => rfl | ⟨2, _⟩ => rfl | ⟨3, _⟩ => rfl)

/-! ## The maximum-reduce over the keys -/

/-- The reduced index (s, h, r) with key coordinate k put back is (s, h, r, k). -/
private theorem lift_row (hR : S20x4x1024x1024.Reduces [3] S20x4x1024) (s : Fin 20) (h : Fin 4) (r : Fin 1024)
    (k : Fin (S20x4x1024x1024.size 3)) : hR.lift (ix3 s h r) k = ix4 s h r (⟨k.val, k.isLt⟩ : Fin 1024) :=
  funext fun a => Fin.ext (by match a with | ⟨0, _⟩ => rfl | ⟨1, _⟩ => rfl | ⟨2, _⟩ => rfl | ⟨3, _⟩ => rfl)

/-- A maximum-reduce over the keys from the word −∞, at row (s, h, r): the fold of max over the row's 1024 entries. -/
private theorem reduceMax_row (y : (⟨S20x4x1024x1024, .f32⟩ : BufTy).Contents (Elt Ideal)) (s : Fin 20) (h : Fin 4) (r : Fin 1024) :
    Host.reduce FloatOps.maximumf y (constant (F := Ideal) S_ .f32 0xFF800000#32) reducesTo_S20x4x1024x1024_S20x4x1024_d3 h_S_ (ix3 s h r)
      = (Finset.univ : Finset (Fin 1024)).fold max (Ideal.ofBits .f32 0xFF800000#32) (fun k => y (ix4 s h r k)) := by
  have hR : S20x4x1024x1024.Reduces [3] S20x4x1024 := by decide
  have e := Host.reduce_eq_fold_single (FloatOps.maximumf (F := Ideal) (φ := .f32)) y (constant (F := Ideal) S_ .f32 0xFF800000#32)
    reducesTo_S20x4x1024x1024_S20x4x1024_d3 hR h_S_ (ix3 s h r)
  have hf : (y ∘ hR.lift (ix3 s h r)) = fun k : Fin 1024 => y (ix4 s h r k) :=
    funext fun k => congrArg y (lift_row hR s h r k)
  exact e.trans (congrArg (fun f => Finset.fold max (Ideal.ofBits .f32 0xFF800000#32) f (Finset.univ : Finset (Fin 1024))) hf)

/-! ## The first variant, level by level -/

section G
variable (x0 : (⟨S3x20x1024x64, .f32⟩ : BufTy).Contents (Elt Ideal)) (x1 x2 x3 x4 x5 x6 : (⟨S64, .f32⟩ : BufTy).Contents (Elt Ideal))

/-- %32: the scaled score of query row r against key row k. -/
private theorem scores_g (s : Fin 20) (h : Fin 4) (r k : Fin 1024) :
    val_main_v32 (F := Ideal) x0 x1 x2 x3 x4 (ix4 s h r k)
      = score (fun d' => val_main_v25 (F := Ideal) x0 x1 x2 (ix4 s h r d'))
              (fun k d' => val_main_v27 (F := Ideal) x0 x3 x4 (ix4 s h k d')) k := by
  rw [val_main_v32_apply, val_main_v30_apply, val_main_v31_apply, val_main_cst_apply]
  generalize val_main_v25 (F := Ideal) x0 x1 x2 = Q
  generalize val_main_v27 (F := Ideal) x0 x3 x4 = K
  unfold score
  simp only [lidx_qk, ridx_qk]
  rfl

/-- %35: the row's maximum. -/
private theorem max_g (s : Fin 20) (h : Fin 4) (r : Fin 1024) :
    val_main_v35 (F := Ideal) x0 x1 x2 x3 x4 (ix3 s h r)
      = rowMax (fun k => val_main_v32 (F := Ideal) x0 x1 x2 x3 x4 (ix4 s h r k)) := by
  rw [val_main_v35_apply, val_main_v34_apply, val_main_cst_1_apply]
  unfold val_main_v33 val_main_cst_0
  generalize val_main_v32 (F := Ideal) x0 x1 x2 x3 x4 = y
  rw [reduceMax_row y s h r]
  rfl

/-- %39: the exponential of the score less the row's maximum. -/
private theorem expo_g (s : Fin 20) (h : Fin 4) (r k : Fin 1024) :
    val_main_v39 (F := Ideal) x0 x1 x2 x3 x4 (ix4 s h r k)
      = expo (fun d' => val_main_v25 (F := Ideal) x0 x1 x2 (ix4 s h r d'))
             (fun k d' => val_main_v27 (F := Ideal) x0 x3 x4 (ix4 s h k d')) k := by
  rw [val_main_v39_apply, val_main_v38_apply, val_main_v37_apply, val_main_v36_apply, idx_bcast, max_g]
  simp only [scores_g]
  rfl

/-- %40: the row's sum of the exponentials. -/
private theorem denom_g (s : Fin 20) (h : Fin 4) (r : Fin 1024) :
    val_main_v40 (F := Ideal) x0 x1 x2 x3 x4 (ix3 s h r)
      = denom (fun d' => val_main_v25 (F := Ideal) x0 x1 x2 (ix4 s h r d'))
              (fun k d' => val_main_v27 (F := Ideal) x0 x3 x4 (ix4 s h k d')) := by
  rw [val_main_v40_apply, val_main_cst_2_apply, Ideal.ofBits_def, Ideal.ofBits_zero_f32, zero_add]
  unfold denom
  refine Finset.sum_congr rfl fun k _ => ?_
  rw [idx_sum, expo_g]

/-- %43: the softmax weight of key row k. -/
private theorem prob_g (s : Fin 20) (h : Fin 4) (r k : Fin 1024) :
    val_main_v43 (F := Ideal) x0 x1 x2 x3 x4 (ix4 s h r k)
      = prob (fun d' => val_main_v25 (F := Ideal) x0 x1 x2 (ix4 s h r d'))
             (fun k d' => val_main_v27 (F := Ideal) x0 x3 x4 (ix4 s h k d')) k := by
  rw [val_main_v43_apply, val_main_v42_apply, val_main_v41_apply, idx_bcast', denom_g, expo_g]
  rfl

end G

/-- The first variant's core (operations %30 … %44) at (s, h, r, d). -/
theorem core_g (x0 : (⟨S3x20x1024x64, .f32⟩ : BufTy).Contents (Elt Ideal)) (x1 x2 x3 x4 x5 x6 : (⟨S64, .f32⟩ : BufTy).Contents (Elt Ideal))
    (s : Fin 20) (h : Fin 4) (r : Fin 1024) (d : Fin 16) :
    val_main_v44 (F := Ideal) x0 x1 x2 x3 x4 x5 x6 (ix4 s h r d)
      = attnH (fun d' => val_main_v25 (F := Ideal) x0 x1 x2 (ix4 s h r d'))
              (fun k d' => val_main_v27 (F := Ideal) x0 x3 x4 (ix4 s h k d'))
              (fun k d' => val_main_v29 (F := Ideal) x0 x5 x6 (ix4 s h k d')) d := by
  rw [val_main_v44_apply]
  unfold attnH
  refine Finset.sum_congr rfl fun k _ => ?_
  rw [lidx_pv, ridx_pv, prob_g]

/-! ## The second variant, level by level -/

section L
variable (x0 : (⟨S3x20x1024x64, .f32⟩ : BufTy).Contents (Elt Ideal)) (x7 x8 x9 x10 x11 x12 : (⟨S64, .f32⟩ : BufTy).Contents (Elt Ideal))

/-- %73: the scaled score of query row r against key row k. -/
private theorem scores_l (s : Fin 20) (h : Fin 4) (r k : Fin 1024) :
    val_main_v73 (F := Ideal) x0 x7 x8 x9 x10 (ix4 s h r k)
      = score (fun d' => val_main_v66 (F := Ideal) x0 x7 x8 (ix4 s h r d'))
              (fun k d' => val_main_v68 (F := Ideal) x0 x9 x10 (ix4 s h k d')) k := by
  rw [val_main_v73_apply, val_main_v71_apply, val_main_v72_apply, val_main_cst_3_apply]
  generalize val_main_v66 (F := Ideal) x0 x7 x8 = Q
  generalize val_main_v68 (F := Ideal) x0 x9 x10 = K
  unfold score
  simp only [lidx_qk_l, ridx_qk_l]
  rfl

/-- %76: the row's maximum. -/
private theorem max_l (s : Fin 20) (h : Fin 4) (r : Fin 1024) :
    val_main_v76 (F := Ideal) x0 x7 x8 x9 x10 (ix3 s h r)
      = rowMax (fun k => val_main_v73 (F := Ideal) x0 x7 x8 x9 x10 (ix4 s h r k)) := by
  rw [val_main_v76_apply, val_main_v75_apply, val_main_cst_5_apply]
  unfold val_main_v74 val_main_cst_4
  generalize val_main_v73 (F := Ideal) x0 x7 x8 x9 x10 = y
  rw [reduceMax_row y s h r]
  rfl

/-- %80: the exponential of the score less the row's maximum. -/
private theorem expo_l (s : Fin 20) (h : Fin 4) (r k : Fin 1024) :
    val_main_v80 (F := Ideal) x0 x7 x8 x9 x10 (ix4 s h r k)
      = expo (fun d' => val_main_v66 (F := Ideal) x0 x7 x8 (ix4 s h r d'))
             (fun k d' => val_main_v68 (F := Ideal) x0 x9 x10 (ix4 s h k d')) k := by
  rw [val_main_v80_apply, val_main_v79_apply, val_main_v78_apply, val_main_v77_apply, idx_bcast_l, max_l]
  simp only [scores_l]
  rfl

/-- %81: the row's sum of the exponentials. -/
private theorem denom_l (s : Fin 20) (h : Fin 4) (r : Fin 1024) :
    val_main_v81 (F := Ideal) x0 x7 x8 x9 x10 (ix3 s h r)
      = denom (fun d' => val_main_v66 (F := Ideal) x0 x7 x8 (ix4 s h r d'))
              (fun k d' => val_main_v68 (F := Ideal) x0 x9 x10 (ix4 s h k d')) := by
  rw [val_main_v81_apply, val_main_cst_6_apply, Ideal.ofBits_def, Ideal.ofBits_zero_f32, zero_add]
  unfold denom
  refine Finset.sum_congr rfl fun k _ => ?_
  rw [idx_sum_l, expo_l]

/-- %84: the softmax weight of key row k. -/
private theorem prob_l (s : Fin 20) (h : Fin 4) (r k : Fin 1024) :
    val_main_v84 (F := Ideal) x0 x7 x8 x9 x10 (ix4 s h r k)
      = prob (fun d' => val_main_v66 (F := Ideal) x0 x7 x8 (ix4 s h r d'))
             (fun k d' => val_main_v68 (F := Ideal) x0 x9 x10 (ix4 s h k d')) k := by
  rw [val_main_v84_apply, val_main_v83_apply, val_main_v82_apply, idx_bcast_l', denom_l, expo_l]
  rfl

end L

/-- The second variant's core (operations %71 … %85) at (s, h, r, d). -/
theorem core_l (x0 : (⟨S3x20x1024x64, .f32⟩ : BufTy).Contents (Elt Ideal)) (x7 x8 x9 x10 x11 x12 : (⟨S64, .f32⟩ : BufTy).Contents (Elt Ideal))
    (s : Fin 20) (h : Fin 4) (r : Fin 1024) (d : Fin 16) :
    val_main_v85 (F := Ideal) x0 x7 x8 x9 x10 x11 x12 (ix4 s h r d)
      = attnH (fun d' => val_main_v66 (F := Ideal) x0 x7 x8 (ix4 s h r d'))
              (fun k d' => val_main_v68 (F := Ideal) x0 x9 x10 (ix4 s h k d'))
              (fun k d' => val_main_v70 (F := Ideal) x0 x11 x12 (ix4 s h k d')) d := by
  rw [val_main_v85_apply]
  unfold attnH
  refine Finset.sum_congr rfl fun k _ => ?_
  rw [lidx_pv_l, ridx_pv_l, prob_l]

end Cert.ReferenceIdeal.RefCore

end
-- ==== Proof.RefValue.lean ====
/-
  The reference's result read at one element: slice `s`, row `r`, channel `ch h d` is the mixed and projected
  attention (`Spec.outAt`) of the argument arrays.
-/
import proofs.«102288_j12481174962635_2_alg».proof.Proof.Gen.ReferenceIdeal.Read
import proofs.«102288_j12481174962635_2_alg».proof.Proof.Spec
import proofs.«102288_j12481174962635_2_alg».proof.Proof.RefCore
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Cert.ReferenceIdeal.RefCore Idealize.ShloMosaic Idealize.ShloMosaic.ValueIdx Cert.Spec

/-! ## Per-channel parameters spread over slices and rows

A 64-vector spread first to [1, 1, 64] and then to [20, 1024, 64] reads, at (s, r, c), the vector at c. -/

theorem v7_at (x1 : (⟨S64, .f32⟩ : BufTy).Contents (Elt Ideal)) (s : Fin 20) (r : Fin 1024) (c : Fin 64) :
    val_main_v7 (F := Ideal) x1 (ix3 s r c) = x1 (ix1 c) := by
  rw [val_main_v7_apply, val_main_v6_apply]
  exact congrArg x1 (funext fun a => match a with | ⟨0, _⟩ => rfl)

theorem v10_at (x2 : (⟨S64, .f32⟩ : BufTy).Contents (Elt Ideal)) (s : Fin 20) (r : Fin 1024) (c : Fin 64) :
    val_main_v10 (F := Ideal) x2 (ix3 s r c) = x2 (ix1 c) := by
  rw [val_main_v10_apply, val_main_v9_apply]
  exact congrArg x2 (funext fun a => match a with | ⟨0, _⟩ => rfl)

theorem v13_at (x3 : (⟨S64, .f32⟩ : BufTy).Contents (Elt Ideal)) (s : Fin 20) (r : Fin 1024) (c : Fin 64) :
    val_main_v13 (F := Ideal) x3 (ix3 s r c) = x3 (ix1 c) := by
  rw [val_main_v13_apply, val_main_v12_apply]
  exact congrArg x3 (funext fun a => match a with | ⟨0, _⟩ => rfl)

theorem v16_at (x4 : (⟨S64, .f32⟩ : BufTy).Contents (Elt Ideal)) (s : Fin 20) (r : Fin 1024) (c : Fin 64) :
    val_main_v16 (F := Ideal) x4 (ix3 s r c) = x4 (ix1 c) := by
  rw [val_main_v16_apply, val_main_v15_apply]
  exact congrArg x4 (funext fun a => match a with | ⟨0, _⟩ => rfl)

theorem v19_at (x5 : (⟨S64, .f32⟩ : BufTy).Contents (Elt Ideal)) (s : Fin 20) (r : Fin 1024) (c : Fin 64) :
    val_main_v19 (F := Ideal) x5 (ix3 s r c) = x5 (ix1 c) := by
  rw [val_main_v19_apply, val_main_v18_apply]
  exact congrArg x5 (funext fun a => match a with | ⟨0, _⟩ => rfl)

theorem v22_at (x6 : (⟨S64, .f32⟩ : BufTy).Contents (Elt Ideal)) (s : Fin 20) (r : Fin 1024) (c : Fin 64) :
    val_main_v22 (F := Ideal) x6 (ix3 s r c) = x6 (ix1 c) := by
  rw [val_main_v22_apply, val_main_v21_apply]
  exact congrArg x6 (funext fun a => match a with | ⟨0, _⟩ => rfl)

theorem v48_at (x7 : (⟨S64, .f32⟩ : BufTy).Contents (Elt Ideal)) (s : Fin 20) (r : Fin 1024) (c : Fin 64) :
    val_main_v48 (F := Ideal) x7 (ix3 s r c) = x7 (ix1 c) := by
  rw [val_main_v48_apply, val_main_v47_apply]
  exact congrArg x7 (funext fun a => match a with | ⟨0, _⟩ => rfl)

theorem v51_at (x8 : (⟨S64, .f32⟩ : BufTy).Contents (Elt Ideal)) (s : Fin 20) (r : Fin 1024) (c : Fin 64) :
    val_main_v51 (F := Ideal) x8 (ix3 s r c) = x8 (ix1 c) := by
  rw [val_main_v51_apply, val_main_v50_apply]
  exact congrArg x8 (funext fun a => match a with | ⟨0, _⟩ => rfl)

theorem v54_at (x9 : (⟨S64, .f32⟩ : BufTy).Contents (Elt Ideal)) (s : Fin 20) (r : Fin 1024) (c : Fin 64) :
    val_main_v54 (F := Ideal) x9 (ix3 s r c) = x9 (ix1 c) := by
  rw [val_main_v54_apply, val_main_v53_apply]
  exact congrArg x9 (funext fun a => match a with | ⟨0, _⟩ => rfl)

theorem v57_at (x10 : (⟨S64, .f32⟩ : BufTy).Contents (Elt Ideal)) (s : Fin 20) (r : Fin 1024) (c : Fin 64) :
    val_main_v57 (F := Ideal) x10 (ix3 s r c) = x10 (ix1 c) := by
  rw [val_main_v57_apply, val_main_v56_apply]
  exact congrArg x10 (funext fun a => match a with | ⟨0, _⟩ => rfl)

theorem v60_at (x11 : (⟨S64, .f32⟩ : BufTy).Contents (Elt Ideal)) (s : Fin 20) (r : Fin 1024) (c : Fin 64) :
    val_main_v60 (F := Ideal) x11 (ix3 s r c) = x11 (ix1 c) := by
  rw [val_main_v60_apply, val_main_v59_apply]
  exact congrArg x11 (funext fun a => match a with | ⟨0, _⟩ => rfl)

theorem v63_at (x12 : (⟨S64, .f32⟩ : BufTy).Contents (Elt Ideal)) (s : Fin 20) (r : Fin 1024) (c : Fin 64) :
    val_main_v63 (F := Ideal) x12 (ix3 s r c) = x12 (ix1 c) := by
  rw [val_main_v63_apply, val_main_v62_apply]
  exact congrArg x12 (funext fun a => match a with | ⟨0, _⟩ => rfl)

theorem v96_at (x13 : (⟨S64, .f32⟩ : BufTy).Contents (Elt Ideal)) (s : Fin 20) (r : Fin 1024) (c : Fin 64) :
    val_main_v96 (F := Ideal) x13 (ix3 s r c) = x13 (ix1 c) := by
  rw [val_main_v96_apply, val_main_v95_apply]
  exact congrArg x13 (funext fun a => match a with | ⟨0, _⟩ => rfl)

theorem v99_at (x14 : (⟨S64, .f32⟩ : BufTy).Contents (Elt Ideal)) (s : Fin 20) (r : Fin 1024) (c : Fin 64) :
    val_main_v99 (F := Ideal) x14 (ix3 s r c) = x14 (ix1 c) := by
  rw [val_main_v99_apply, val_main_v98_apply]
  exact congrArg x14 (funext fun a => match a with | ⟨0, _⟩ => rfl)

/-! ## The three parts of `x`

Part `j` of `x` cut out ([1, 20, 1024, 64]) and its unit axis dropped reads, at (s, r, c), `x` at (j, s, r, c). -/

theorem idx0_1 (s : Fin 20) (r : Fin 1024) (c : Fin 64) :
    idx_main_v0 (idx_main_v1 (ix3 s r c)) = ix4 (0 : Fin 3) s r c := by
  funext a
  refine Fin.ext ?_
  have hs := s.isLt; have hr := r.isLt; have hc := c.isLt
  match a with
  | ⟨0, _⟩ => rfl
  | ⟨1, _⟩ => show ((s.val * 1024 + r.val) * 64 + c.val) / 65536 % 20 = s.val; omega
  | ⟨2, _⟩ => show ((s.val * 1024 + r.val) * 64 + c.val) / 64 % 1024 = r.val; omega
  | ⟨3, _⟩ => show ((s.val * 1024 + r.val) * 64 + c.val) % 64 = c.val; omega

theorem v1_at (x0 : (⟨S3x20x1024x64, .f32⟩ : BufTy).Contents (Elt Ideal)) (s : Fin 20) (r : Fin 1024) (c : Fin 64) :
    val_main_v1 (F := Ideal) x0 (ix3 s r c) = x0 (ix4 (0 : Fin 3) s r c) := by
  rw [val_main_v1_apply, val_main_v0_apply, idx0_1]

theorem idx2_3 (s : Fin 20) (r : Fin 1024) (c : Fin 64) :
    idx_main_v2 (idx_main_v3 (ix3 s r c)) = ix4 (1 : Fin 3) s r c := by
  funext a
  refine Fin.ext ?_
  have hs := s.isLt; have hr := r.isLt; have hc := c.isLt
  match a with
  | ⟨0, _⟩ => rfl
  | ⟨1, _⟩ => show ((s.val * 1024 + r.val) * 64 + c.val) / 65536 % 20 = s.val; omega
  | ⟨2, _⟩ => show ((s.val * 1024 + r.val) * 64 + c.val) / 64 % 1024 = r.val; omega
  | ⟨3, _⟩ => show ((s.val * 1024 + r.val) * 64 + c.val) % 64 = c.val; omega

theorem v3_at (x0 : (⟨S3x20x1024x64, .f32⟩ : BufTy).Contents (Elt Ideal)) (s : Fin 20) (r : Fin 1024) (c : Fin 64) :
    val_main_v3 (F := Ideal) x0 (ix3 s r c) = x0 (ix4 (1 : Fin 3) s r c) := by
  rw [val_main_v3_apply, val_main_v2_apply, idx2_3]

theorem idx4_5 (s : Fin 20) (r : Fin 1024) (c : Fin 64) :
    idx_main_v4 (idx_main_v5 (ix3 s r c)) = ix4 (2 : Fin 3) s r c := by
  funext a
  refine Fin.ext ?_
  have hs := s.isLt; have hr := r.isLt; have hc := c.isLt
  match a with
  | ⟨0, _⟩ => rfl
  | ⟨1, _⟩ => show ((s.val * 1024 + r.val) * 64 + c.val) / 65536 % 20 = s.val; omega
  | ⟨2, _⟩ => show ((s.val * 1024 + r.val) * 64 + c.val) / 64 % 1024 = r.val; omega
  | ⟨3, _⟩ => show ((s.val * 1024 + r.val) * 64 + c.val) % 64 = c.val; omega

theorem v5_at (x0 : (⟨S3x20x1024x64, .f32⟩ : BufTy).Contents (Elt Ideal)) (s : Fin 20) (r : Fin 1024) (c : Fin 64) :
    val_main_v5 (F := Ideal) x0 (ix3 s r c) = x0 (ix4 (2 : Fin 3) s r c) := by
  rw [val_main_v5_apply, val_main_v4_apply, idx4_5]

/-! ## The split into heads

A [20, 1024, 64] array regrouped as [20, 1024, 4, 16] and its two middle axes exchanged reads, at (s, h, r, d), the
array at (s, r, 16 h + d); in front of it, the scale and shift of one part of `x`. -/

theorem idx24_25 (s : Fin 20) (h : Fin 4) (r : Fin 1024) (d : Fin 16) :
    idx_main_v24 (idx_main_v25 (ix4 s h r d)) = ix3 s r (ch h d) := by
  funext a
  refine Fin.ext ?_
  have hs := s.isLt; have hh := h.isLt; have hr := r.isLt; have hd := d.isLt
  match a with
  | ⟨0, _⟩ => show (((s.val * 1024 + r.val) * 4 + h.val) * 16 + d.val) / 65536 = s.val; omega
  | ⟨1, _⟩ => show (((s.val * 1024 + r.val) * 4 + h.val) * 16 + d.val) / 64 % 1024 = r.val; omega
  | ⟨2, _⟩ => show (((s.val * 1024 + r.val) * 4 + h.val) * 16 + d.val) % 64 = h.val * 16 + d.val; omega

theorem v25_at (x0 : (⟨S3x20x1024x64, .f32⟩ : BufTy).Contents (Elt Ideal)) (x1 x2 : (⟨S64, .f32⟩ : BufTy).Contents (Elt Ideal)) (s : Fin 20) (h : Fin 4) (r : Fin 1024) (d : Fin 16) :
    val_main_v25 (F := Ideal) x0 x1 x2 (ix4 s h r d) = dwRow x0 x1 x2 0 s r (ch h d) := by
  rw [val_main_v25_apply, val_main_v24_apply, idx24_25, val_main_v11_apply, val_main_v8_apply,
    v1_at, v7_at, v10_at]
  rfl

theorem idx26_27 (s : Fin 20) (h : Fin 4) (r : Fin 1024) (d : Fin 16) :
    idx_main_v26 (idx_main_v27 (ix4 s h r d)) = ix3 s r (ch h d) := by
  funext a
  refine Fin.ext ?_
  have hs := s.isLt; have hh := h.isLt; have hr := r.isLt; have hd := d.isLt
  match a with
  | ⟨0, _⟩ => show (((s.val * 1024 + r.val) * 4 + h.val) * 16 + d.val) / 65536 = s.val; omega
  | ⟨1, _⟩ => show (((s.val * 1024 + r.val) * 4 + h.val) * 16 + d.val) / 64 % 1024 = r.val; omega
  | ⟨2, _⟩ => show (((s.val * 1024 + r.val) * 4 + h.val) * 16 + d.val) % 64 = h.val * 16 + d.val; omega

theorem v27_at (x0 : (⟨S3x20x1024x64, .f32⟩ : BufTy).Contents (Elt Ideal)) (x3 x4 : (⟨S64, .f32⟩ : BufTy).Contents (Elt Ideal)) (s : Fin 20) (h : Fin 4) (r : Fin 1024) (d : Fin 16) :
    val_main_v27 (F := Ideal) x0 x3 x4 (ix4 s h r d) = dwRow x0 x3 x4 1 s r (ch h d) := by
  rw [val_main_v27_apply, val_main_v26_apply, idx26_27, val_main_v17_apply, val_main_v14_apply,
    v3_at, v13_at, v16_at]
  rfl

theorem idx28_29 (s : Fin 20) (h : Fin 4) (r : Fin 1024) (d : Fin 16) :
    idx_main_v28 (idx_main_v29 (ix4 s h r d)) = ix3 s r (ch h d) := by
  funext a
  refine Fin.ext ?_
  have hs := s.isLt; have hh := h.isLt; have hr := r.isLt; have hd := d.isLt
  match a with
  | ⟨0, _⟩ => show (((s.val * 1024 + r.val) * 4 + h.val) * 16 + d.val) / 65536 = s.val; omega
  | ⟨1, _⟩ => show (((s.val * 1024 + r.val) * 4 + h.val) * 16 + d.val) / 64 % 1024 = r.val; omega
  | ⟨2, _⟩ => show (((s.val * 1024 + r.val) * 4 + h.val) * 16 + d.val) % 64 = h.val * 16 + d.val; omega

theorem v29_at (x0 : (⟨S3x20x1024x64, .f32⟩ : BufTy).Contents (Elt Ideal)) (x5 x6 : (⟨S64, .f32⟩ : BufTy).Contents (Elt Ideal)) (s : Fin 20) (h : Fin 4) (r : Fin 1024) (d : Fin 16) :
    val_main_v29 (F := Ideal) x0 x5 x6 (ix4 s h r d) = dwRow x0 x5 x6 2 s r (ch h d) := by
  rw [val_main_v29_apply, val_main_v28_apply, idx28_29, val_main_v23_apply, val_main_v20_apply,
    v5_at, v19_at, v22_at]
  rfl

theorem idx65_66 (s : Fin 20) (h : Fin 4) (r : Fin 1024) (d : Fin 16) :
    idx_main_v65 (idx_main_v66 (ix4 s h r d)) = ix3 s r (ch h d) := by
  funext a
  refine Fin.ext ?_
  have hs := s.isLt; have hh := h.isLt; have hr := r.isLt; have hd := d.isLt
  match a with
  | ⟨0, _⟩ => show (((s.val * 1024 + r.val) * 4 + h.val) * 16 + d.val) / 65536 = s.val; omega
  | ⟨1, _⟩ => show (((s.val * 1024 + r.val) * 4 + h.val) * 16 + d.val) / 64 % 1024 = r.val; omega
  | ⟨2, _⟩ => show (((s.val * 1024 + r.val) * 4 + h.val) * 16 + d.val) % 64 = h.val * 16 + d.val; omega

theorem v66_at (x0 : (⟨S3x20x1024x64, .f32⟩ : BufTy).Contents (Elt Ideal)) (x7 x8 : (⟨S64, .f32⟩ : BufTy).Contents (Elt Ideal)) (s : Fin 20) (h : Fin 4) (r : Fin 1024) (d : Fin 16) :
    val_main_v66 (F := Ideal) x0 x7 x8 (ix4 s h r d) = dwRow x0 x7 x8 0 s r (ch h d) := by
  rw [val_main_v66_apply, val_main_v65_apply, idx65_66, val_main_v52_apply, val_main_v49_apply,
    v1_at, v48_at, v51_at]
  rfl

theorem idx67_68 (s : Fin 20) (h : Fin 4) (r : Fin 1024) (d : Fin 16) :
    idx_main_v67 (idx_main_v68 (ix4 s h r d)) = ix3 s r (ch h d) := by
  funext a
  refine Fin.ext ?_
  have hs := s.isLt; have hh := h.isLt; have hr := r.isLt; have hd := d.isLt
  match a with
  | ⟨0, _⟩ => show (((s.val * 1024 + r.val) * 4 + h.val) * 16 + d.val) / 65536 = s.val; omega
  | ⟨1, _⟩ => show (((s.val * 1024 + r.val) * 4 + h.val) * 16 + d.val) / 64 % 1024 = r.val; omega
  | ⟨2, _⟩ => show (((s.val * 1024 + r.val) * 4 + h.val) * 16 + d.val) % 64 = h.val * 16 + d.val; omega

theorem v68_at (x0 : (⟨S3x20x1024x64, .f32⟩ : BufTy).Contents (Elt Ideal)) (x9 x10 : (⟨S64, .f32⟩ : BufTy).Contents (Elt Ideal)) (s : Fin 20) (h : Fin 4) (r : Fin 1024) (d : Fin 16) :
    val_main_v68 (F := Ideal) x0 x9 x10 (ix4 s h r d) = dwRow x0 x9 x10 1 s r (ch h d) := by
  rw [val_main_v68_apply, val_main_v67_apply, idx67_68, val_main_v58_apply, val_main_v55_apply,
    v3_at, v54_at, v57_at]
  rfl

theorem idx69_70 (s : Fin 20) (h : Fin 4) (r : Fin 1024) (d : Fin 16) :
    idx_main_v69 (idx_main_v70 (ix4 s h r d)) = ix3 s r (ch h d) := by
  funext a
  refine Fin.ext ?_
  have hs := s.isLt; have hh := h.isLt; have hr := r.isLt; have hd := d.isLt
  match a with
  | ⟨0, _⟩ => show (((s.val * 1024 + r.val) * 4 + h.val) * 16 + d.val) / 65536 = s.val; omega
  | ⟨1, _⟩ => show (((s.val * 1024 + r.val) * 4 + h.val) * 16 + d.val) / 64 % 1024 = r.val; omega
  | ⟨2, _⟩ => show (((s.val * 1024 + r.val) * 4 + h.val) * 16 + d.val) % 64 = h.val * 16 + d.val; omega

theorem v70_at (x0 : (⟨S3x20x1024x64, .f32⟩ : BufTy).Contents (Elt Ideal)) (x11 x12 : (⟨S64, .f32⟩ : BufTy).Contents (Elt Ideal)) (s : Fin 20) (h : Fin 4) (r : Fin 1024) (d : Fin 16) :
    val_main_v70 (F := Ideal) x0 x11 x12 (ix4 s h r d) = dwRow x0 x11 x12 2 s r (ch h d) := by
  rw [val_main_v70_apply, val_main_v69_apply, idx69_70, val_main_v64_apply, val_main_v61_apply,
    v5_at, v60_at, v63_at]
  rfl

/-! ## The merge of heads

A head-major [20, 4, 1024, 16] array with its middle axes exchanged back and the heads' lanes laid side by side reads,
at (s, r, 16 h + d), the array at (s, h, r, d). -/

theorem idx45_46 (s : Fin 20) (r : Fin 1024) (h : Fin 4) (d : Fin 16) :
    idx_main_v45 (idx_main_v46 (ix3 s r (ch h d))) = ix4 s h r d := by
  funext a
  refine Fin.ext ?_
  have hs := s.isLt; have hh := h.isLt; have hr := r.isLt; have hd := d.isLt
  match a with
  | ⟨0, _⟩ => show ((s.val * 1024 + r.val) * 64 + (h.val * 16 + d.val)) / 65536 = s.val; omega
  | ⟨1, _⟩ => show ((s.val * 1024 + r.val) * 64 + (h.val * 16 + d.val)) / 16 % 4 = h.val; omega
  | ⟨2, _⟩ => show ((s.val * 1024 + r.val) * 64 + (h.val * 16 + d.val)) / 64 % 1024 = r.val; omega
  | ⟨3, _⟩ => show ((s.val * 1024 + r.val) * 64 + (h.val * 16 + d.val)) % 16 = d.val; omega

theorem v46_at (x0 : (⟨S3x20x1024x64, .f32⟩ : BufTy).Contents (Elt Ideal)) (x1 x2 x3 x4 x5 x6 : (⟨S64, .f32⟩ : BufTy).Contents (Elt Ideal)) (s : Fin 20) (r : Fin 1024) (h : Fin 4) (d : Fin 16) :
    val_main_v46 (F := Ideal) x0 x1 x2 x3 x4 x5 x6 (ix3 s r (ch h d)) = val_main_v44 (F := Ideal) x0 x1 x2 x3 x4 x5 x6 (ix4 s h r d) := by
  rw [val_main_v46_apply, val_main_v45_apply, idx45_46]

theorem idx86_87 (s : Fin 20) (r : Fin 1024) (h : Fin 4) (d : Fin 16) :
    idx_main_v86 (idx_main_v87 (ix3 s r (ch h d))) = ix4 s h r d := by
  funext a
  refine Fin.ext ?_
  have hs := s.isLt; have hh := h.isLt; have hr := r.isLt; have hd := d.isLt
  match a with
  | ⟨0, _⟩ => show ((s.val * 1024 + r.val) * 64 + (h.val * 16 + d.val)) / 65536 = s.val; omega
  | ⟨1, _⟩ => show ((s.val * 1024 + r.val) * 64 + (h.val * 16 + d.val)) / 16 % 4 = h.val; omega
  | ⟨2, _⟩ => show ((s.val * 1024 + r.val) * 64 + (h.val * 16 + d.val)) / 64 % 1024 = r.val; omega
  | ⟨3, _⟩ => show ((s.val * 1024 + r.val) * 64 + (h.val * 16 + d.val)) % 16 = d.val; omega

theorem v87_at (x0 : (⟨S3x20x1024x64, .f32⟩ : BufTy).Contents (Elt Ideal)) (x7 x8 x9 x10 x11 x12 : (⟨S64, .f32⟩ : BufTy).Contents (Elt Ideal)) (s : Fin 20) (r : Fin 1024) (h : Fin 4) (d : Fin 16) :
    val_main_v87 (F := Ideal) x0 x7 x8 x9 x10 x11 x12 (ix3 s r (ch h d)) = val_main_v85 (F := Ideal) x0 x7 x8 x9 x10 x11 x12 (ix4 s h r d) := by
  rw [val_main_v87_apply, val_main_v86_apply, idx86_87]

/-! ## The mix and the projection

The last eight arithmetic operations at (s, r, c): `2 · (½ · l + ½ · g) · proj_w + proj_b`, the three literals as
their words. -/

theorem tail_at (x0 : (⟨S3x20x1024x64, .f32⟩ : BufTy).Contents (Elt Ideal))
    (x1 x2 x3 x4 x5 x6 x7 x8 x9 x10 x11 x12 x13 x14 : (⟨S64, .f32⟩ : BufTy).Contents (Elt Ideal))
    (s : Fin 20) (r : Fin 1024) (c : Fin 64) :
    val_main_v100 (F := Ideal) x0 x1 x2 x3 x4 x5 x6 x7 x8 x9 x10 x11 x12 x13 x14 (ix3 s r c)
      = mix (val_main_v46 (F := Ideal) x0 x1 x2 x3 x4 x5 x6 (ix3 s r c)) (val_main_v87 (F := Ideal) x0 x7 x8 x9 x10 x11 x12 (ix3 s r c))
          (x13 (ix1 c)) (x14 (ix1 c)) := by
  rw [val_main_v100_apply, val_main_v97_apply, val_main_v94_apply, val_main_v92_apply, val_main_v89_apply,
    val_main_v91_apply, val_main_v88_apply, val_main_v90_apply, val_main_v93_apply, val_main_cst_7_apply,
    val_main_cst_8_apply, val_main_cst_9_apply, v96_at, v99_at]
  generalize val_main_v46 (F := Ideal) x0 x1 x2 x3 x4 x5 x6 (ix3 s r c) = g
  generalize val_main_v87 (F := Ideal) x0 x7 x8 x9 x10 x11 x12 (ix3 s r c) = l
  rfl

/-- The reference's last stage at (s, r, ch h d). -/
theorem ref_at (x0 : (⟨S3x20x1024x64, .f32⟩ : BufTy).Contents (Elt Ideal))
    (x1 x2 x3 x4 x5 x6 x7 x8 x9 x10 x11 x12 x13 x14 : (⟨S64, .f32⟩ : BufTy).Contents (Elt Ideal))
    (s : Fin 20) (r : Fin 1024) (h : Fin 4) (d : Fin 16) :
    val_main_v100 (F := Ideal) x0 x1 x2 x3 x4 x5 x6 x7 x8 x9 x10 x11 x12 x13 x14 (ix3 s r (ch h d))
      = outAt x0 x1 x2 x3 x4 x5 x6 x7 x8 x9 x10 x11 x12 x13 x14 s r h d := by
  rw [tail_at, v46_at, v87_at, core_g, core_l]
  simp only [v25_at, v27_at, v29_at, v66_at, v68_at, v70_at]
  rfl

end Cert.ReferenceIdeal.RefValue

end
-- ==== Proof.lean ====
/-
  The certificate's claims, assembled.

  Both idealized programs compute, at the extended reals, ONE function of the argument arrays (`Spec.G`): two multi-head
  attentions over the three parts of `x` (per-channel scale and shift, four heads of sixteen lanes, scores times 0.25, a
  row softmax, the weights against the values), mixed as `2 · (½ · local + ½ · global) · proj_w + proj_b`. The kernel
  tiles the query rows over a grid of 20 slices × 4 tiles; every output row depends on one query row and on its slice's
  keys and values only, so the 80 blocks it writes back are blocks of that one function and they tile the result array
  (`ArrValue.run`). The reference applies the same operations to whole arrays (`RefValue.ref_at`). No law beyond
  re-indexing and `0 + x = x` joins the two sides, so the precondition is never opened. The three frames are the
  generated ones (the reference's is its generated run with the result dropped), and the ideal pass rewrote nothing.
-/
import proofs.«102288_j12481174962635_2_alg».proof.Defs
import proofs.«102288_j12481174962635_2_alg».proof.Proof.Gen.Kernel
import proofs.«102288_j12481174962635_2_alg».proof.Proof.Gen.Kernel.Skeleton
import proofs.«102288_j12481174962635_2_alg».proof.Proof.Gen.Kernel.Launch
import proofs.«102288_j12481174962635_2_alg».proof.Proof.Gen.Kernel.Points
import proofs.«102288_j12481174962635_2_alg».proof.Proof.Gen.Kernel.Frame
import proofs.«102288_j12481174962635_2_alg».proof.Proof.Gen.KernelIdeal
import proofs.«102288_j12481174962635_2_alg».proof.Proof.Gen.KernelIdeal.Skeleton
import proofs.«102288_j12481174962635_2_alg».proof.Proof.Gen.KernelIdeal.Launch
import proofs.«102288_j12481174962635_2_alg».proof.Proof.Gen.KernelIdeal.Points
import proofs.«102288_j12481174962635_2_alg».proof.Proof.Gen.KernelIdeal.Frame
import proofs.«102288_j12481174962635_2_alg».proof.Proof.Gen.ReferenceIdeal
import proofs.«102288_j12481174962635_2_alg».proof.Proof.Gen.KernelIdeal.Value
import proofs.«102288_j12481174962635_2_alg».proof.Proof.Gen.ReferenceIdeal.Run
import proofs.«102288_j12481174962635_2_alg».proof.Proof.Gen.ReferenceIdeal.Read
import proofs.«102288_j12481174962635_2_alg».proof.Proof.Gen.Pre_finite_inputs
import proofs.«102288_j12481174962635_2_alg».proof.Proof.Spec
import proofs.«102288_j12481174962635_2_alg».proof.Proof.KernelValue
import proofs.«102288_j12481174962635_2_alg».proof.Proof.RefValue
import Idealize.ShloMosaic.Adequacy
import Idealize.ShloMosaic.Init

noncomputable section

namespace Cert.Proof

open Idealize.ShloMosaic Idealize.SL.Sem Idealize.ShloMosaic.ValueIdx

/-- The reference's last stage IS the result function: index by index, every channel being the channel of its head and
    lane. -/
theorem ref_eq (x0 : (⟨Cert.ReferenceIdeal.S3x20x1024x64, .f32⟩ : BufTy).Contents (Elt Ideal))
    (x1 x2 x3 x4 x5 x6 x7 x8 x9 x10 x11 x12 x13 x14 : (⟨Cert.ReferenceIdeal.S64, .f32⟩ : BufTy).Contents (Elt Ideal)) :
    Cert.ReferenceIdeal.Read.val_main_v100 (F := Ideal) x0 x1 x2 x3 x4 x5 x6 x7 x8 x9 x10 x11 x12 x13 x14 = Cert.Spec.G x0 x1 x2 x3 x4 x5 x6 x7 x8 x9 x10 x11 x12 x13 x14 := by
  funext i
  obtain ⟨s, r, k, rfl⟩ : ∃ (s : Fin 20) (r : Fin 1024) (k : Fin 64), i = ix3 s r k := ⟨i 0, i 1, i 2, eq_ix3 i⟩
  rw [← Cert.Spec.ch_hd_ln k, Cert.Spec.G_ix3]
  exact Cert.ReferenceIdeal.RefValue.ref_at x0 x1 x2 x3 x4 x5 x6 x7 x8 x9 x10 x11 x12 x13 x14 s r (Cert.Spec.hd k) (Cert.Spec.ln k)

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- At the extended reals the kernel's result array ends at the result function of its arguments (the blocks-to-array
    leg) and the reference's at the same function of arguments that agree. -/
theorem algebraic : Cert.algebraic_KernelIdeal_ReferenceIdeal := by
  intro m ρ m' ρ' _ hagree
  refine ⟨fun c => Cert.KernelIdeal.ArrValue.result m c, Cert.KernelIdeal.ArrValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v100_eq, ref_eq]
  obtain ⟨a0, a1, a2, a3, a4, a5, a6, a7, a8, a9, a10, a11, a12, a13, a14⟩ := hagree c
  rw [a0, a1, a2, a3, a4, a5, a6, a7, a8, a9, a10, a11, a12, a13, a14]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
